-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S784x2000 : Shape := ⟨2, ![784, 2000]⟩
abbrev S2000 : Shape := ⟨1, ![2000]⟩
abbrev S2000x2000 : Shape := ⟨2, ![2000, 2000]⟩
abbrev S2000x500 : Shape := ⟨2, ![2000, 500]⟩
abbrev S500 : Shape := ⟨1, ![500]⟩
abbrev S500x256 : Shape := ⟨2, ![500, 256]⟩
abbrev S256 : Shape := ⟨1, ![256]⟩
abbrev S256x500 : Shape := ⟨2, ![256, 500]⟩
abbrev S500x2000 : Shape := ⟨2, ![500, 2000]⟩
abbrev S2000x784 : Shape := ⟨2, ![2000, 784]⟩
abbrev S784 : Shape := ⟨1, ![784]⟩
abbrev S1024x256 : Shape := ⟨2, ![1024, 256]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S784x2000 : S_.BroadcastsInDim S784x2000 (![] : Fin 0 → Fin S784x2000.rank)
  reducesTo_S784x2000_S_d0_1 : S784x2000.ReducesTo [0, 1] S_
  bcast_S_S2000 : S_.BroadcastsInDim S2000 (![] : Fin 0 → Fin S2000.rank)
  reducesTo_S2000_S_d0 : S2000.ReducesTo [0] S_
  bcast_S_S2000x2000 : S_.BroadcastsInDim S2000x2000 (![] : Fin 0 → Fin S2000x2000.rank)
  reducesTo_S2000x2000_S_d0_1 : S2000x2000.ReducesTo [0, 1] S_
  bcast_S_S2000x500 : S_.BroadcastsInDim S2000x500 (![] : Fin 0 → Fin S2000x500.rank)
  reducesTo_S2000x500_S_d0_1 : S2000x500.ReducesTo [0, 1] S_
  bcast_S_S500 : S_.BroadcastsInDim S500 (![] : Fin 0 → Fin S500.rank)
  reducesTo_S500_S_d0 : S500.ReducesTo [0] S_
  bcast_S_S500x256 : S_.BroadcastsInDim S500x256 (![] : Fin 0 → Fin S500x256.rank)
  reducesTo_S500x256_S_d0_1 : S500x256.ReducesTo [0, 1] S_
  bcast_S_S256 : S_.BroadcastsInDim S256 (![] : Fin 0 → Fin S256.rank)
  reducesTo_S256_S_d0 : S256.ReducesTo [0] S_
  bcast_S_S256x500 : S_.BroadcastsInDim S256x500 (![] : Fin 0 → Fin S256x500.rank)
  reducesTo_S256x500_S_d0_1 : S256x500.ReducesTo [0, 1] S_
  bcast_S_S500x2000 : S_.BroadcastsInDim S500x2000 (![] : Fin 0 → Fin S500x2000.rank)
  reducesTo_S500x2000_S_d0_1 : S500x2000.ReducesTo [0, 1] S_
  bcast_S_S2000x784 : S_.BroadcastsInDim S2000x784 (![] : Fin 0 → Fin S2000x784.rank)
  reducesTo_S2000x784_S_d0_1 : S2000x784.ReducesTo [0, 1] S_
  bcast_S_S784 : S_.BroadcastsInDim S784 (![] : Fin 0 → Fin S784.rank)
  reducesTo_S784_S_d0 : S784.ReducesTo [0] S_
  bcast_S_S1024x256 : S_.BroadcastsInDim S1024x256 (![] : Fin 0 → Fin S1024x256.rank)
  reducesTo_S1024x256_S_d0_1 : S1024x256.ReducesTo [0, 1] S_

variable [Facts]

def fn_part5 {F : FTy → Type} [FloatOps F] (main_v83 : IVec S_ 1) (main_v84 : FVec F S1024x256 .f32) (main_cst_32 : FVec F S_ .f32) : IVec S_ 1 :=
  let main_v85 : FVec F S1024x256 .f32 := broadcastInDim S1024x256 ![] bcast_S_S1024x256 main_cst_32
  let main_v86 : IVec S1024x256 1 := cmpf .olt main_v84 main_v85
  let main_c_33 : IVec S_ 1 := constantI S_ 1 1#1
  let main_v87 : IVec S_ 1 := (fun x v => Host.reduce IntOp.andi x v reducesTo_S1024x256_S_d0_1 h_S_) main_v86 main_c_33
  let main_v88 : IVec S_ 1 := andi main_v83 main_v87
  main_v88

def fn_part4 {F : FTy → Type} [FloatOps F] (main_arg14 : FVec F S2000 .f32) (main_arg15 : FVec F S2000x784 .f32) (main_arg16 : FVec F S784 .f32) (main_arg17 : FVec F S1024x256 .f32) (main_v63 : IVec S_ 1) (main_v67 : IVec S_ 1) : IVec S_ 1 :=
  let main_v68 : IVec S_ 1 := andi main_v63 main_v67
  let main_v69 : FVec F S2000 .f32 := Host.absf main_arg14
  let main_cst_26 : FVec F S_ .f32 := constant S_ .f32 0x7F800000#32
  let main_v70 : FVec F S2000 .f32 := broadcastInDim S2000 ![] bcast_S_S2000 main_cst_26
  let main_v71 : IVec S2000 1 := cmpf .olt main_v69 main_v70
  let main_c_27 : IVec S_ 1 := constantI S_ 1 1#1
  let main_v72 : IVec S_ 1 := (fun x v => Host.reduce IntOp.andi x v reducesTo_S2000_S_d0 h_S_) main_v71 main_c_27
  let main_v73 : IVec S_ 1 := andi main_v68 main_v72
  let main_v74 : FVec F S2000x784 .f32 := Host.absf main_arg15
  let main_cst_28 : FVec F S_ .f32 := constant S_ .f32 0x7F800000#32
  let main_v75 : FVec F S2000x784 .f32 := broadcastInDim S2000x784 ![] bcast_S_S2000x784 main_cst_28
  let main_v76 : IVec S2000x784 1 := cmpf .olt main_v74 main_v75
  let main_c_29 : IVec S_ 1 := constantI S_ 1 1#1
  let main_v77 : IVec S_ 1 := (fun x v => Host.reduce IntOp.andi x v reducesTo_S2000x784_S_d0_1 h_S_) main_v76 main_c_29
  let main_v78 : IVec S_ 1 := andi main_v73 main_v77
  let main_v79 : FVec F S784 .f32 := Host.absf main_arg16
  let main_cst_30 : FVec F S_ .f32 := constant S_ .f32 0x7F800000#32
  let main_v80 : FVec F S784 .f32 := broadcastInDim S784 ![] bcast_S_S784 main_cst_30
  let main_v81 : IVec S784 1 := cmpf .olt main_v79 main_v80
  let main_c_31 : IVec S_ 1 := constantI S_ 1 1#1
  let main_v82 : IVec S_ 1 := (fun x v => Host.reduce IntOp.andi x v reducesTo_S784_S_d0 h_S_) main_v81 main_c_31
  let main_v83 : IVec S_ 1 := andi main_v78 main_v82
  let main_v84 : FVec F S1024x256 .f32 := Host.absf main_arg17
  let main_cst_32 : FVec F S_ .f32 := constant S_ .f32 0x7F800000#32
  fn_part5 (F := F) main_v83 main_v84 main_cst_32

def fn_part3 {F : FTy → Type} [FloatOps F] (main_arg11 : FVec F S500x2000 .f32) (main_arg12 : FVec F S2000 .f32) (main_arg13 : FVec F S2000x2000 .f32) (main_arg14 : FVec F S2000 .f32) (main_arg15 : FVec F S2000x784 .f32) (main_arg16 : FVec F S784 .f32) (main_arg17 : FVec F S1024x256 .f32) (main_v48 : IVec S_ 1) (main_v49 : FVec F S500 .f32) (main_v50 : FVec F S500 .f32) : IVec S_ 1 :=
  let main_v51 : IVec S500 1 := cmpf .olt main_v49 main_v50
  let main_c_19 : IVec S_ 1 := constantI S_ 1 1#1
  let main_v52 : IVec S_ 1 := (fun x v => Host.reduce IntOp.andi x v reducesTo_S500_S_d0 h_S_) main_v51 main_c_19
  let main_v53 : IVec S_ 1 := andi main_v48 main_v52
  let main_v54 : FVec F S500x2000 .f32 := Host.absf main_arg11
  let main_cst_20 : FVec F S_ .f32 := constant S_ .f32 0x7F800000#32
  let main_v55 : FVec F S500x2000 .f32 := broadcastInDim S500x2000 ![] bcast_S_S500x2000 main_cst_20
  let main_v56 : IVec S500x2000 1 := cmpf .olt main_v54 main_v55
  let main_c_21 : IVec S_ 1 := constantI S_ 1 1#1
  let main_v57 : IVec S_ 1 := (fun x v => Host.reduce IntOp.andi x v reducesTo_S500x2000_S_d0_1 h_S_) main_v56 main_c_21
  let main_v58 : IVec S_ 1 := andi main_v53 main_v57
  let main_v59 : FVec F S2000 .f32 := Host.absf main_arg12
  let main_cst_22 : FVec F S_ .f32 := constant S_ .f32 0x7F800000#32
  let main_v60 : FVec F S2000 .f32 := broadcastInDim S2000 ![] bcast_S_S2000 main_cst_22
  let main_v61 : IVec S2000 1 := cmpf .olt main_v59 main_v60
  let main_c_23 : IVec S_ 1 := constantI S_ 1 1#1
  let main_v62 : IVec S_ 1 := (fun x v => Host.reduce IntOp.andi x v reducesTo_S2000_S_d0 h_S_) main_v61 main_c_23
  let main_v63 : IVec S_ 1 := andi main_v58 main_v62
  let main_v64 : FVec F S2000x2000 .f32 := Host.absf main_arg13
  let main_cst_24 : FVec F S_ .f32 := constant S_ .f32 0x7F800000#32
  let main_v65 : FVec F S2000x2000 .f32 := broadcastInDim S2000x2000 ![] bcast_S_S2000x2000 main_cst_24
  let main_v66 : IVec S2000x2000 1 := cmpf .olt main_v64 main_v65
  let main_c_25 : IVec S_ 1 := constantI S_ 1 1#1
  let main_v67 : IVec S_ 1 := (fun x v => Host.reduce IntOp.andi x v reducesTo_S2000x2000_S_d0_1 h_S_) main_v66 main_c_25
  fn_part4 (F := F) main_arg14 main_arg15 main_arg16 main_arg17 main_v63 main_v67

def fn_part2 {F : FTy → Type} [FloatOps F] (main_arg7 : FVec F S500x256 .f32) (main_arg8 : FVec F S256 .f32) (main_arg9 : FVec F S256x500 .f32) (main_arg10 : FVec F S500 .f32) (main_arg11 : FVec F S500x2000 .f32) (main_arg12 : FVec F S2000 .f32) (main_arg13 : FVec F S2000x2000 .f32) (main_arg14 : FVec F S2000 .f32) (main_arg15 : FVec F S2000x784 .f32) (main_arg16 : FVec F S784 .f32) (main_arg17 : FVec F S1024x256 .f32) (main_v33 : IVec S_ 1) : IVec S_ 1 :=
  let main_v34 : FVec F S500x256 .f32 := Host.absf main_arg7
  let main_cst_12 : FVec F S_ .f32 := constant S_ .f32 0x7F800000#32
  let main_v35 : FVec F S500x256 .f32 := broadcastInDim S500x256 ![] bcast_S_S500x256 main_cst_12
  let main_v36 : IVec S500x256 1 := cmpf .olt main_v34 main_v35
  let main_c_13 : IVec S_ 1 := constantI S_ 1 1#1
  let main_v37 : IVec S_ 1 := (fun x v => Host.reduce IntOp.andi x v reducesTo_S500x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x500 .f32 := Host.absf main_arg9
  let main_cst_16 : FVec F S_ .f32 := constant S_ .f32 0x7F800000#32
  let main_v45 : FVec F S256x500 .f32 := broadcastInDim S256x500 ![] bcast_S_S256x500 main_cst_16
  let main_v46 : IVec S256x500 1 := cmpf .olt main_v44 main_v45
  let main_c_17 : IVec S_ 1 := constantI S_ 1 1#1
  let main_v47 : IVec S_ 1 := (fun x v => Host.reduce IntOp.andi x v reducesTo_S256x500_S_d0_1 h_S_) main_v46 main_c_17
  let main_v48 : IVec S_ 1 := andi main_v43 main_v47
  let main_v49 : FVec F S500 .f32 := Host.absf main_arg10
  let main_cst_18 : FVec F S_ .f32 := constant S_ .f32 0x7F800000#32
  let main_v50 : FVec F S500 .f32 := broadcastInDim S500 ![] bcast_S_S500 main_cst_18
  fn_part3 (F := F) main_arg11 main_arg12 main_arg13 main_arg14 main_arg15 main_arg16 main_arg17 main_v48 main_v49 main_v50

def fn_part1 {F : FTy → Type} [FloatOps F] (main_arg4 : FVec F S2000 .f32) (main_arg5 : FVec F S2000x500 .f32) (main_arg6 : FVec F S500 .f32) (main_arg7 : FVec F S500x256 .f32) (main_arg8 : FVec F S256 .f32) (main_arg9 : FVec F S256x500 .f32) (main_arg10 : FVec F S500 .f32) (main_arg11 : FVec F S500x2000 .f32) (main_arg12 : FVec F S2000 .f32) (main_arg13 : FVec F S2000x2000 .f32) (main_arg14 : FVec F S2000 .f32) (main_arg15 : FVec F S2000x784 .f32) (main_arg16 : FVec F S784 .f32) (main_arg17 : FVec F S1024x256 .f32) (main_v13 : IVec S_ 1) (main_v16 : IVec S2000x2000 1) : IVec S_ 1 :=
  let main_c_5 : IVec S_ 1 := constantI S_ 1 1#1
  let main_v17 : IVec S_ 1 := (fun x v => Host.reduce IntOp.andi x v reducesTo_S2000x2000_S_d0_1 h_S_) main_v16 main_c_5
  let main_v18 : IVec S_ 1 := andi main_v13 main_v17
  let main_v19 : FVec F S2000 .f32 := Host.absf main_arg4
  let main_cst_6 : FVec F S_ .f32 := constant S_ .f32 0x7F800000#32
  let main_v20 : FVec F S2000 .f32 := broadcastInDim S2000 ![] bcast_S_S2000 main_cst_6
  let main_v21 : IVec S2000 1 := cmpf .olt main_v19 main_v20
  let main_c_7 : IVec S_ 1 := constantI S_ 1 1#1
  let main_v22 : IVec S_ 1 := (fun x v => Host.reduce IntOp.andi x v reducesTo_S2000_S_d0 h_S_) main_v21 main_c_7
  let main_v23 : IVec S_ 1 := andi main_v18 main_v22
  let main_v24 : FVec F S2000x500 .f32 := Host.absf main_arg5
  let main_cst_8 : FVec F S_ .f32 := constant S_ .f32 0x7F800000#32
  let main_v25 : FVec F S2000x500 .f32 := broadcastInDim S2000x500 ![] bcast_S_S2000x500 main_cst_8
  let main_v26 : IVec S2000x500 1 := cmpf .olt main_v24 main_v25
  let main_c_9 : IVec S_ 1 := constantI S_ 1 1#1
  let main_v27 : IVec S_ 1 := (fun x v => Host.reduce IntOp.andi x v reducesTo_S2000x500_S_d0_1 h_S_) main_v26 main_c_9
  let main_v28 : IVec S_ 1 := andi main_v23 main_v27
  let main_v29 : FVec F S500 .f32 := Host.absf main_arg6
  let main_cst_10 : FVec F S_ .f32 := constant S_ .f32 0x7F800000#32
  let main_v30 : FVec F S500 .f32 := broadcastInDim S500 ![] bcast_S_S500 main_cst_10
  let main_v31 : IVec S500 1 := cmpf .olt main_v29 main_v30
  let main_c_11 : IVec S_ 1 := constantI S_ 1 1#1
  let main_v32 : IVec S_ 1 := (fun x v => Host.reduce IntOp.andi x v reducesTo_S500_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x784 .f32) (main_arg1 : FVec F S784x2000 .f32) (main_arg2 : FVec F S2000 .f32) (main_arg3 : FVec F S2000x2000 .f32) (main_arg4 : FVec F S2000 .f32) (main_arg5 : FVec F S2000x500 .f32) (main_arg6 : FVec F S500 .f32) (main_arg7 : FVec F S500x256 .f32) (main_arg8 : FVec F S256 .f32) (main_arg9 : FVec F S256x500 .f32) (main_arg10 : FVec F S500 .f32) (main_arg11 : FVec F S500x2000 .f32) (main_arg12 : FVec F S2000 .f32) (main_arg13 : FVec F S2000x2000 .f32) (main_arg14 : FVec F S2000 .f32) (main_arg15 : FVec F S2000x784 .f32) (main_arg16 : FVec F S784 .f32) (main_arg17 : FVec F S1024x256 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S784x2000 .f32 := Host.absf main_arg1
  let main_cst_0 : FVec F S_ .f32 := constant S_ .f32 0x7F800000#32
  let main_v5 : FVec F S784x2000 .f32 := broadcastInDim S784x2000 ![] bcast_S_S784x2000 main_cst_0
  let main_v6 : IVec S784x2000 1 := cmpf .olt main_v4 main_v5
  let main_c_1 : IVec S_ 1 := constantI S_ 1 1#1
  let main_v7 : IVec S_ 1 := (fun x v => Host.reduce IntOp.andi x v reducesTo_S784x2000_S_d0_1 h_S_) main_v6 main_c_1
  let main_v8 : IVec S_ 1 := andi main_v3 main_v7
  let main_v9 : FVec F S2000 .f32 := Host.absf main_arg2
  let main_cst_2 : FVec F S_ .f32 := constant S_ .f32 0x7F800000#32
  let main_v10 : FVec F S2000 .f32 := broadcastInDim S2000 ![] bcast_S_S2000 main_cst_2
  let main_v11 : IVec S2000 1 := cmpf .olt main_v9 main_v10
  let main_c_3 : IVec S_ 1 := constantI S_ 1 1#1
  let main_v12 : IVec S_ 1 := (fun x v => Host.reduce IntOp.andi x v reducesTo_S2000_S_d0 h_S_) main_v11 main_c_3
  let main_v13 : IVec S_ 1 := andi main_v8 main_v12
  let main_v14 : FVec F S2000x2000 .f32 := Host.absf main_arg3
  let main_cst_4 : FVec F S_ .f32 := constant S_ .f32 0x7F800000#32
  let main_v15 : FVec F S2000x2000 .f32 := broadcastInDim S2000x2000 ![] bcast_S_S2000x2000 main_cst_4
  let main_v16 : IVec S2000x2000 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16384x784 : Shape := ⟨2, ![16384, 784]⟩
abbrev S784x2000 : Shape := ⟨2, ![784, 2000]⟩
abbrev S2000 : Shape := ⟨1, ![2000]⟩
abbrev S2000x2000 : Shape := ⟨2, ![2000, 2000]⟩
abbrev S2000x500 : Shape := ⟨2, ![2000, 500]⟩
abbrev S500 : Shape := ⟨1, ![500]⟩
abbrev S500x256 : Shape := ⟨2, ![500, 256]⟩
abbrev S256 : Shape := ⟨1, ![256]⟩
abbrev S256x500 : Shape := ⟨2, ![256, 500]⟩
abbrev S500x2000 : Shape := ⟨2, ![500, 2000]⟩
abbrev S2000x784 : Shape := ⟨2, ![2000, 784]⟩
abbrev S784 : Shape := ⟨1, ![784]⟩
abbrev S1024x256 : Shape := ⟨2, ![1024, 256]⟩
abbrev S1x2000 : Shape := ⟨2, ![1, 2000]⟩
abbrev S16384x2000 : Shape := ⟨2, ![16384, 2000]⟩
abbrev S1024x784 : Shape := ⟨2, ![1024, 784]⟩
abbrev S1024x2000 : Shape := ⟨2, ![1024, 2000]⟩
abbrev S256x1024 : Shape := ⟨2, ![256, 1024]⟩
abbrev S_ : Shape := ⟨0, ![]⟩
abbrev S1024 : Shape := ⟨1, ![1024]⟩
abbrev S1x1024 : Shape := ⟨2, ![1, 1024]⟩
abbrev S1x500 : Shape := ⟨2, ![1, 500]⟩
abbrev S1x256 : Shape := ⟨2, ![1, 256]⟩
abbrev S16384x1024 : Shape := ⟨2, ![16384, 1024]⟩
abbrev S512x2000 : Shape := ⟨2, ![512, 2000]⟩
abbrev S512x1024 : Shape := ⟨2, ![512, 1024]⟩
abbrev S512x500 : Shape := ⟨2, ![512, 500]⟩
abbrev S512x256 : Shape := ⟨2, ![512, 256]⟩
abbrev S512 : Shape := ⟨1, ![512]⟩
abbrev S512x1 : Shape := ⟨2, ![512, 1]⟩
abbrev S1x784 : Shape := ⟨2, ![1, 784]⟩

abbrev nBuf : Space → Nat
  | .hbm => 45
  | .vmem => 40
  | .smem => 0
  | _ => 0

abbrev bufTy : (tb : Table) → Fin (tcTables nBuf tb) → BufTy
  | .hbm, ⟨0, _⟩ => ⟨S16384x784, .f32⟩
  | .hbm, ⟨1, _⟩ => ⟨S784x2000, .f32⟩
  | .hbm, ⟨2, _⟩ => ⟨S2000, .f32⟩
  | .hbm, ⟨3, _⟩ => ⟨S2000x2000, .f32⟩
  | .hbm, ⟨4, _⟩ => ⟨S2000, .f32⟩
  | .hbm, ⟨5, _⟩ => ⟨S2000x500, .f32⟩
  | .hbm, ⟨6, _⟩ => ⟨S500, .f32⟩
  | .hbm, ⟨7, _⟩ => ⟨S500x256, .f32⟩
  | .hbm, ⟨8, _⟩ => ⟨S256, .f32⟩
  | .hbm, ⟨9, _⟩ => ⟨S256x500, .f32⟩
  | .hbm, ⟨10, _⟩ => ⟨S500, .f32⟩
  | .hbm, ⟨11, _⟩ => ⟨S500x2000, .f32⟩
  | .hbm, ⟨12, _⟩ => ⟨S2000, .f32⟩
  | .hbm, ⟨13, _⟩ => ⟨S2000x2000, .f32⟩
  | .hbm, ⟨14, _⟩ => ⟨S2000, .f32⟩
  | .hbm, ⟨15, _⟩ => ⟨S2000x784, .f32⟩
  | .hbm, ⟨16, _⟩ => ⟨S784, .f32⟩
  | .hbm, ⟨17, _⟩ => ⟨S1024x256, .f32⟩
  | .hbm, ⟨18, _⟩ => ⟨S784x2000, .bf16⟩
  | .hbm, ⟨19, _⟩ => ⟨S1x2000, .f32⟩
  | .hbm, ⟨20, _⟩ => ⟨S16384x2000, .bf16⟩
  | .hbm, ⟨21, _⟩ => ⟨S2000x2000, .bf16⟩
  | .hbm, ⟨22, _⟩ => ⟨S1x2000, .f32⟩
  | .hbm, ⟨23, _⟩ => ⟨S16384x2000, .bf16⟩
  | .hbm, ⟨24, _⟩ => ⟨S256x1024, .f32⟩
  | .hbm, ⟨25, _⟩ => ⟨S1024x256, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2000x500, .bf16⟩
  | .hbm, ⟨30, _⟩ => ⟨S1x500, .f32⟩
  | .hbm, ⟨31, _⟩ => ⟨S500x256, .bf16⟩
  | .hbm, ⟨32, _⟩ => ⟨S1x256, .f32⟩
  | .hbm, ⟨33, _⟩ => ⟨S256x500, .bf16⟩
  | .hbm, ⟨34, _⟩ => ⟨S1x500, .f32⟩
  | .hbm, ⟨35, _⟩ => ⟨S500x2000, .bf16⟩
  | .hbm, ⟨36, _⟩ => ⟨S1x2000, .f32⟩
  | .hbm, ⟨37, _⟩ => ⟨S16384x2000, .bf16⟩
  | .hbm, ⟨38, _⟩ => ⟨S16384x1024, .f32⟩
  | .hbm, ⟨39, _⟩ => ⟨S2000x2000, .bf16⟩
  | .hbm, ⟨40, _⟩ => ⟨S1x2000, .f32⟩
  | .hbm, ⟨41, _⟩ => ⟨S16384x2000, .bf16⟩
  | .hbm, ⟨42, _⟩ => ⟨S2000x784, .bf16⟩
  | .hbm, ⟨43, _⟩ => ⟨S1x784, .f32⟩
  | .hbm, ⟨44, _⟩ => ⟨S16384x784, .f32⟩
  | .local _ .vmem, ⟨0, _⟩ => ⟨S1024x784, .f32⟩
  | .local _ .vmem, ⟨1, _⟩ => ⟨S1024x784, .f32⟩
  | .local _ .vmem, ⟨2, _⟩ => ⟨S784x2000, .bf16⟩
  | .local _ .vmem, ⟨3, _⟩ => ⟨S1x2000, .f32⟩
  | .local _ .vmem, ⟨4, _⟩ => ⟨S1024x2000, .bf16⟩
  | .local _ .vmem, ⟨5, _⟩ => ⟨S1024x2000, .bf16⟩
  | .local _ .vmem, ⟨6, _⟩ => ⟨S1024x2000, .bf16⟩
  | .local _ .vmem, ⟨7, _⟩ => ⟨S1024x2000, .bf16⟩
  | .local _ .vmem, ⟨8, _⟩ => ⟨S2000x2000, .bf16⟩
  | .local _ .vmem, ⟨9, _⟩ => ⟨S1x2000, .f32⟩
  | .local _ .vmem, ⟨10, _⟩ => ⟨S1024x2000, .bf16⟩
  | .local _ .vmem, ⟨11, _⟩ => ⟨S1024x2000, .bf16⟩
  | .local _ .vmem, ⟨12, _⟩ => ⟨S512x2000, .bf16⟩
  | .local _ .vmem, ⟨13, _⟩ => ⟨S512x2000, .bf16⟩
  | .local _ .vmem, ⟨14, _⟩ => ⟨S2000x500, .bf16⟩
  | .local _ .vmem, ⟨15, _⟩ => ⟨S1x500, .f32⟩
  | .local _ .vmem, ⟨16, _⟩ => ⟨S500x256, .bf16⟩
  | .local _ .vmem, ⟨17, _⟩ => ⟨S1x256, .f32⟩
  | .local _ .vmem, ⟨18, _⟩ => ⟨S256x500, .bf16⟩
  | .local _ .vmem, ⟨19, _⟩ => ⟨S1x500, .f32⟩
  | .local _ .vmem, ⟨20, _⟩ => ⟨S500x2000, .bf16⟩
  | .local _ .vmem, ⟨21, _⟩ => ⟨S1x2000, .f32⟩
  | .local _ .vmem, ⟨22, _⟩ => ⟨S256x1024, .f32⟩
  | .local _ .vmem, ⟨23, _⟩ => ⟨S1x1024, .f32⟩
  | .local _ .vmem, ⟨24, _⟩ => ⟨S512x2000, .bf16⟩
  | .local _ .vmem, ⟨25, _⟩ => ⟨S512x2000, .bf16⟩
  | .local _ .vmem, ⟨26, _⟩ => ⟨S512x1024, .f32⟩
  | .local _ .vmem, ⟨27, _⟩ => ⟨S512x1024, .f32⟩
  | .local _ .vmem, ⟨28, _⟩ => ⟨S1024x2000, .bf16⟩
  | .local _ .vmem, ⟨29, _⟩ => ⟨S1024x2000, .bf16⟩
  | .local _ .vmem, ⟨30, _⟩ => ⟨S2000x2000, .bf16⟩
  | .local _ .vmem, ⟨31, _⟩ => ⟨S1x2000, .f32⟩
  | .local _ .vmem, ⟨32, _⟩ => ⟨S1024x2000, .bf16⟩
  | .local _ .vmem, ⟨33, _⟩ => ⟨S1024x2000, .bf16⟩
  | .local _ .vmem, ⟨34, _⟩ => ⟨S1024x2000, .bf16⟩
  | .local _ .vmem, ⟨35, _⟩ => ⟨S1024x2000, .bf16⟩
  | .local _ .vmem, ⟨36, _⟩ => ⟨S2000x784, .bf16⟩
  | .local _ .vmem, ⟨37, _⟩ => ⟨S1x784, .f32⟩
  | .local _ .vmem, ⟨38, _⟩ => ⟨S1024x784, .f32⟩
  | .local _ .vmem, ⟨39, _⟩ => ⟨S1024x784, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg9_0 : Ref sig .tc := ⟨.vmem, 22, rfl⟩
abbrev cc2_stg10_0 : Ref sig .tc := ⟨.vmem, 23, rfl⟩
abbrev cc2_stg11_0 : Ref sig .tc := ⟨.vmem, 24, rfl⟩
abbrev cc2_stg11_1 : Ref sig .tc := ⟨.vmem, 25, rfl⟩
abbrev cc2_stg12_0 : Ref sig .tc := ⟨.vmem, 26, rfl⟩
abbrev cc2_stg12_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem10_0 : DmaSem sig := 23
abbrev cc2_sem11_0 : DmaSem sig := 24
abbrev cc2_sem11_1 : DmaSem sig := 25
abbrev cc2_sem12_0 : DmaSem sig := 26
abbrev cc2_sem12_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x2000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2000 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2000x2000 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x2000 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2000x500 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x500 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S500x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x500 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x500 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S500x2000 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x2000 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S512x2000 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S512x1024 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x2000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2000x2000 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2000 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x2000 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x2000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2000x784 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x784 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x784 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bitsLt_bf16_f32 : FTy.bits .bf16 < FTy.bits .f32
  shapeCasts_S2000_S1x2000 : S2000.ShapeCasts S1x2000
  inb_S1024x784_S1024x784_0_0 : ∀ a, (![0, 0] : Fin 2 → Nat) a + S1024x784.size a ≤ S1024x784.size a
  h_S1024x784 : 0 < S1024x784.numel
  inb_S784x2000_S784x2000_0_0 : ∀ a, (![0, 0] : Fin 2 → Nat) a + S784x2000.size a ≤ S784x2000.size a
  h_S784x2000 : 0 < S784x2000.numel
  shapeCasts_S784x2000_S784x2000 : S784x2000.ShapeCasts S784x2000
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S1024x2000 : S1x2000.Broadcasts S1024x2000
  inb_S1024x2000_S1024x2000_0_0 : ∀ a, (![0, 0] : Fin 2 → Nat) a + S1024x2000.size a ≤ S1024x2000.size a
  h_S1024x2000 : 0 < S1024x2000.numel
  packedbf16_S1024x2000_S1024x2000_0_0 : (Rect.unit (s := S1024x2000) ![0, 0] S1024x2000.size inb_S1024x2000_S1024x2000_0_0).PackedRows (EltTy.packing .bf16)
  shapeCasts_S1024x2000_S1024x2000 : S1024x2000.ShapeCasts S1024x2000
  inb_S2000x2000_S2000x2000_0_0 : ∀ a, (![0, 0] : Fin 2 → Nat) a + S2000x2000.size a ≤ S2000x2000.size a
  h_S2000x2000 : 0 < S2000x2000.numel
  shapeCasts_S2000x2000_S2000x2000 : S2000x2000.ShapeCasts S2000x2000
  transposes_S1024x256_S256x1024_1_0 : S1024x256.Transposes [1, 0] S256x1024
  reducesTo_S1024x256_S1024_d1 : S1024x256.ReducesTo [1] S1024
  h_S_ : 0 < S_.numel
  shapeCasts_S1024_S1x1024 : S1024.ShapeCasts S1x1024
  shapeCasts_S500_S1x500 : S500.ShapeCasts S1x500
  shapeCasts_S256_S1x256 : S256.ShapeCasts S1x256
  inb_S512x2000_S512x2000_0_0 : ∀ a, (![0, 0] : Fin 2 → Nat) a + S512x2000.size a ≤ S512x2000.size a
  h_S512x2000 : 0 < S512x2000.numel
  shapeCasts_S512x2000_S512x2000 : S512x2000.ShapeCasts S512x2000
  inb_S2000x500_S2000x500_0_0 : ∀ a, (![0, 0] : Fin 2 → Nat) a + S2000x500.size a ≤ S2000x500.size a
  h_S2000x500 : 0 < S2000x500.numel
  shapeCasts_S2000x500_S2000x500 : S2000x500.ShapeCasts S2000x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S512x500 : S1x500.Broadcasts S512x500
  inb_S500x256_S500x256_0_0 : ∀ a, (![0, 0] : Fin 2 → Nat) a + S500x256.size a ≤ S500x256.size a
  h_S500x256 : 0 < S500x256.numel
  shapeCasts_S500x256_S500x256 : S500x256.ShapeCasts S500x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S512x256_S512 : S512x256.Reduces [1] S512
  shapeCasts_S512_S512x1 : S512.ShapeCasts S512x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  inb_S256x500_S256x500_0_0 : ∀ a, (![0, 0] : Fin 2 → Nat) a + S256x500.size a ≤ S256x500.size a
  h_S256x500 : 0 < S256x500.numel
  shapeCasts_S256x500_S256x500 : S256x500.ShapeCasts S256x500
  inb_S500x2000_S500x2000_0_0 : ∀ a, (![0, 0] : Fin 2 → Nat) a + S500x2000.size a ≤ S500x2000.size a
  h_S500x2000 : 0 < S500x2000.numel
  shapeCasts_S500x2000_S500x2000 : S500x2000.ShapeCasts S500x2000
  broadcasts_S1x2000_S512x2000 : S1x2000.Broadcasts S512x2000
  packedbf16_S512x2000_S512x2000_0_0 : (Rect.unit (s := S512x2000) ![0, 0] S512x2000.size inb_S512x2000_S512x2000_0_0).PackedRows (EltTy.packing .bf16)
  shapeCasts_S784_S1x784 : S784.ShapeCasts S1x784
  inb_S2000x784_S2000x784_0_0 : ∀ a, (![0, 0] : Fin 2 → Nat) a + S2000x784.size a ≤ S2000x784.size a
  h_S2000x784 : 0 < S2000x784.numel
  shapeCasts_S2000x784_S2000x784 : S2000x784.ShapeCasts S2000x784
  inb_S1x784_S1x784_0_0 : ∀ a, (![0, 0] : Fin 2 → Nat) a + S1x784.size a ≤ S1x784.size a
  h_S1x784 : 0 < S1x784.numel
  shapeCasts_S1x784_S1x784 : S1x784.ShapeCasts S1x784
  broadcasts_S1x784_S1024x784 : S1x784.Broadcasts S1024x784
  dot_S1024x784_S784x2000_S1024x2000_1_0_0_1_n_n_wf : DotDims.WF S1024x784 S784x2000 S1024x2000 [1] [0] [0] [1] [] []
  dot_S1024x2000_S2000x2000_S1024x2000_1_0_0_1_n_n_wf : DotDims.WF S1024x2000 S2000x2000 S1024x2000 [1] [0] [0] [1] [] []
  dot_S512x2000_S2000x500_S512x500_1_0_0_1_n_n_wf : DotDims.WF S512x2000 S2000x500 S512x500 [1] [0] [0] [1] [] []
  dot_S512x500_S500x256_S512x256_1_0_0_1_n_n_wf : DotDims.WF S512x500 S500x256 S512x256 [1] [0] [0] [1] [] []
  dot_S512x256_S256x1024_S512x1024_1_0_0_1_n_n_wf : DotDims.WF S512x256 S256x1024 S512x1024 [1] [0] [0] [1] [] []
  dot_S512x256_S256x500_S512x500_1_0_0_1_n_n_wf : DotDims.WF S512x256 S256x500 S512x500 [1] [0] [0] [1] [] []
  dot_S512x500_S500x2000_S512x2000_1_0_0_1_n_n_wf : DotDims.WF S512x500 S500x2000 S512x2000 [1] [0] [0] [1] [] []
  dot_S1024x2000_S2000x784_S1024x784_1_0_0_1_n_n_wf : DotDims.WF S1024x2000 S2000x784 S1024x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S16384x784.size a
  hwx0_0 : ∀ i : grid0.Coords, EltTy.bits .f32 = 32 ∨ (Rect.block (s := S16384x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x2000.size a ≤ S784x2000.size a
  hwx0_1 : ∀ i : grid0.Coords, EltTy.bits .bf16 = 32 ∨ (Rect.block (s := S784x2000) S784x2000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2000.size a ≤ S1x2000.size a
  hwx0_2 : ∀ i : grid0.Coords, EltTy.bits .f32 = 32 ∨ (Rect.block (s := S1x2000) S1x2000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2000.size a ≤ S16384x2000.size a
  hwx0_3 : ∀ i : grid0.Coords, EltTy.bits .bf16 = 32 ∨ (Rect.block (s := S16384x2000) S1024x2000.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2000.size a ≤ S16384x2000.size a
  hwx1_0 : ∀ i : grid1.Coords, EltTy.bits .bf16 = 32 ∨ (Rect.block (s := S16384x2000) S1024x2000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2000x2000.size a ≤ S2000x2000.size a
  hwx1_1 : ∀ i : grid1.Coords, EltTy.bits .bf16 = 32 ∨ (Rect.block (s := S2000x2000) S2000x2000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2000.size a ≤ S1x2000.size a
  hwx1_2 : ∀ i : grid1.Coords, EltTy.bits .f32 = 32 ∨ (Rect.block (s := S1x2000) S1x2000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2000.size a ≤ S16384x2000.size a
  hwx1_3 : ∀ i : grid1.Coords, EltTy.bits .bf16 = 32 ∨ (Rect.block (s := S16384x2000) S1024x2000.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2000.size a ≤ S16384x2000.size a
  hwx2_0 : ∀ i : grid2.Coords, EltTy.bits .bf16 = 32 ∨ (Rect.block (s := S16384x2000) S512x2000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2000x500.size a ≤ S2000x500.size a
  hwx2_1 : ∀ i : grid2.Coords, EltTy.bits .bf16 = 32 ∨ (Rect.block (s := S2000x500) S2000x500.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x500.size a ≤ S1x500.size a
  hwx2_2 : ∀ i : grid2.Coords, EltTy.bits .f32 = 32 ∨ (Rect.block (s := S1x500) S1x500.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S500x256.size a ≤ S500x256.size a
  hwx2_3 : ∀ i : grid2.Coords, EltTy.bits .bf16 = 32 ∨ (Rect.block (s := S500x256) S500x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x500.size a ≤ S256x500.size a
  hwx2_5 : ∀ i : grid2.Coords, EltTy.bits .bf16 = 32 ∨ (Rect.block (s := S256x500) S256x500.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x500.size a ≤ S1x500.size a
  hwx2_6 : ∀ i : grid2.Coords, EltTy.bits .f32 = 32 ∨ (Rect.block (s := S1x500) S1x500.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S500x2000.size a ≤ S500x2000.size a
  hwx2_7 : ∀ i : grid2.Coords, EltTy.bits .bf16 = 32 ∨ (Rect.block (s := S500x2000) S500x2000.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x2000.size a ≤ S1x2000.size a
  hwx2_8 : ∀ i : grid2.Coords, EltTy.bits .f32 = 32 ∨ (Rect.block (s := S1x2000) S1x2000.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x1024.size a ≤ S256x1024.size a
  hwx2_9 : ∀ i : grid2.Coords, EltTy.bits .f32 = 32 ∨ (Rect.block (s := S256x1024) S256x1024.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1024.size a ≤ S1x1024.size a
  hwx2_10 : ∀ i : grid2.Coords, EltTy.bits .f32 = 32 ∨ (Rect.block (s := S1x1024) S1x1024.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S512x2000.size a ≤ S16384x2000.size a
  hwx2_11 : ∀ i : grid2.Coords, EltTy.bits .bf16 = 32 ∨ (Rect.block (s := S16384x2000) S512x2000.size (cc2_transform_11 i) (hinb2_11 i)).WholeWords (EltTy.packing .bf16)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S512x1024.size a ≤ S16384x1024.size a
  hwx2_12 : ∀ i : grid2.Coords, EltTy.bits .f32 = 32 ∨ (Rect.block (s := S16384x1024) S512x1024.size (cc2_transform_12 i) (hinb2_12 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2000.size a ≤ S16384x2000.size a
  hwx3_0 : ∀ i : grid3.Coords, EltTy.bits .bf16 = 32 ∨ (Rect.block (s := S16384x2000) S1024x2000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2000x2000.size a ≤ S2000x2000.size a
  hwx3_1 : ∀ i : grid3.Coords, EltTy.bits .bf16 = 32 ∨ (Rect.block (s := S2000x2000) S2000x2000.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2000.size a ≤ S1x2000.size a
  hwx3_2 : ∀ i : grid3.Coords, EltTy.bits .f32 = 32 ∨ (Rect.block (s := S1x2000) S1x2000.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x2000.size a ≤ S16384x2000.size a
  hwx3_3 : ∀ i : grid3.Coords, EltTy.bits .bf16 = 32 ∨ (Rect.block (s := S16384x2000) S1024x2000.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x2000.size a ≤ S16384x2000.size a
  hwx4_0 : ∀ i : grid4.Coords, EltTy.bits .bf16 = 32 ∨ (Rect.block (s := S16384x2000) S1024x2000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2000x784.size a ≤ S2000x784.size a
  hwx4_1 : ∀ i : grid4.Coords, EltTy.bits .bf16 = 32 ∨ (Rect.block (s := S2000x784) S2000x784.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x784.size a ≤ S1x784.size a
  hwx4_2 : ∀ i : grid4.Coords, EltTy.bits .f32 = 32 ∨ (Rect.block (s := S1x784) S1x784.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x784.size a ≤ S16384x784.size a
  hwx4_3 : ∀ i : grid4.Coords, EltTy.bits .f32 = 32 ∨ (Rect.block (s := S16384x784) S1024x784.size (cc4_transform_3 i) (hinb4_3 i)).WholeWords (EltTy.packing .f32)

variable [Facts₀]

def dot_S1024x784_S784x2000_S1024x2000_1_0_0_1_n_n : DotDims S1024x784 S784x2000 S1024x2000 where
  lhsContracting := [1]
  rhsContracting := [0]
  lhsNonContracting := [0]
  rhsNonContracting := [1]
  lhsBatch := []
  rhsBatch := []
  wf := dot_S1024x784_S784x2000_S1024x2000_1_0_0_1_n_n_wf
def dot_S1024x2000_S2000x2000_S1024x2000_1_0_0_1_n_n : DotDims S1024x2000 S2000x2000 S1024x2000 where
  lhsContracting := [1]
  rhsContracting := [0]
  lhsNonContracting := [0]
  rhsNonContracting := [1]
  lhsBatch := []
  rhsBatch := []
  wf := dot_S1024x2000_S2000x2000_S1024x2000_1_0_0_1_n_n_wf
def dot_S512x2000_S2000x500_S512x500_1_0_0_1_n_n : DotDims S512x2000 S2000x500 S512x500 where
  lhsContracting := [1]
  rhsContracting := [0]
  lhsNonContracting := [0]
  rhsNonContracting := [1]
  lhsBatch := []
  rhsBatch := []
  wf := dot_S512x2000_S2000x500_S512x500_1_0_0_1_n_n_wf
def dot_S512x500_S500x256_S512x256_1_0_0_1_n_n : DotDims S512x500 S500x256 S512x256 where
  lhsContracting := [1]
  rhsContracting := [0]
  lhsNonContracting := [0]
  rhsNonContracting := [1]
  lhsBatch := []
  rhsBatch := []
  wf := dot_S512x500_S500x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x256_S256x500_S512x500_1_0_0_1_n_n : DotDims S512x256 S256x500 S512x500 where
  lhsContracting := [1]
  rhsContracting := [0]
  lhsNonContracting := [0]
  rhsNonContracting := [1]
  lhsBatch := []
  rhsBatch := []
  wf := dot_S512x256_S256x500_S512x500_1_0_0_1_n_n_wf
def dot_S512x500_S500x2000_S512x2000_1_0_0_1_n_n : DotDims S512x500 S500x2000 S512x2000 where
  lhsContracting := [1]
  rhsContracting := [0]
  lhsNonContracting := [0]
  rhsNonContracting := [1]
  lhsBatch := []
  rhsBatch := []
  wf := dot_S512x500_S500x2000_S512x2000_1_0_0_1_n_n_wf
def dot_S1024x2000_S2000x784_S1024x784_1_0_0_1_n_n : DotDims S1024x2000 S2000x784 S1024x784 where
  lhsContracting := [1]
  rhsContracting := [0]
  lhsNonContracting := [0]
  rhsNonContracting := [1]
  lhsBatch := []
  rhsBatch := []
  wf := dot_S1024x2000_S2000x784_S1024x784_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S784x2000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1024x2000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2000x2000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x2000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S512x2000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S2000x500.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x500.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S500x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14) S256x500.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S1x500.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v16) S500x2000.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v17) S1x2000.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v6) S256x1024.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v9) S1x1024.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v18_0) S512x2000.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v18_1) S512x1024.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev win3_0 : Pipeline.Window sig grid3 :=
  Pipeline.Window.ofSpec (Memref.whole main_v18_0) S1024x2000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S2000x2000.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x2000.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1024x2000.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v21) S1024x2000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v22) S2000x784.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v23) S1x784.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v24) S1024x784.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S16384x784 : Shape := ⟨2, ![16384, 784]⟩
abbrev S784x2000 : Shape := ⟨2, ![784, 2000]⟩
abbrev S2000 : Shape := ⟨1, ![2000]⟩
abbrev S2000x2000 : Shape := ⟨2, ![2000, 2000]⟩
abbrev S2000x500 : Shape := ⟨2, ![2000, 500]⟩
abbrev S500 : Shape := ⟨1, ![500]⟩
abbrev S500x256 : Shape := ⟨2, ![500, 256]⟩
abbrev S256 : Shape := ⟨1, ![256]⟩
abbrev S256x500 : Shape := ⟨2, ![256, 500]⟩
abbrev S500x2000 : Shape := ⟨2, ![500, 2000]⟩
abbrev S2000x784 : Shape := ⟨2, ![2000, 784]⟩
abbrev S784 : Shape := ⟨1, ![784]⟩
abbrev S1024x256 : Shape := ⟨2, ![1024, 256]⟩
abbrev S16384x2000 : Shape := ⟨2, ![16384, 2000]⟩
abbrev S1x2000 : Shape := ⟨2, ![1, 2000]⟩
abbrev S_ : Shape := ⟨0, ![]⟩
abbrev S16384x500 : Shape := ⟨2, ![16384, 500]⟩
abbrev S1x500 : Shape := ⟨2, ![1, 500]⟩
abbrev S16384x256 : Shape := ⟨2, ![16384, 256]⟩
abbrev S1x256 : Shape := ⟨2, ![1, 256]⟩
abbrev S1x784 : Shape := ⟨2, ![1, 784]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩

abbrev nBuf : Space → Nat
  | .hbm => 88
  | .vmem => 0
  | .smem => 0
  | _ => 0

abbrev bufTy : (tb : Table) → Fin (tcTables nBuf tb) → BufTy
  | .hbm, ⟨0, _⟩ => ⟨S16384x784, .f32⟩
  | .hbm, ⟨1, _⟩ => ⟨S784x2000, .f32⟩
  | .hbm, ⟨2, _⟩ => ⟨S2000, .f32⟩
  | .hbm, ⟨3, _⟩ => ⟨S2000x2000, .f32⟩
  | .hbm, ⟨4, _⟩ => ⟨S2000, .f32⟩
  | .hbm, ⟨5, _⟩ => ⟨S2000x500, .f32⟩
  | .hbm, ⟨6, _⟩ => ⟨S500, .f32⟩
  | .hbm, ⟨7, _⟩ => ⟨S500x256, .f32⟩
  | .hbm, ⟨8, _⟩ => ⟨S256, .f32⟩
  | .hbm, ⟨9, _⟩ => ⟨S256x500, .f32⟩
  | .hbm, ⟨10, _⟩ => ⟨S500, .f32⟩
  | .hbm, ⟨11, _⟩ => ⟨S500x2000, .f32⟩
  | .hbm, ⟨12, _⟩ => ⟨S2000, .f32⟩
  | .hbm, ⟨13, _⟩ => ⟨S2000x2000, .f32⟩
  | .hbm, ⟨14, _⟩ => ⟨S2000, .f32⟩
  | .hbm, ⟨15, _⟩ => ⟨S2000x784, .f32⟩
  | .hbm, ⟨16, _⟩ => ⟨S784, .f32⟩
  | .hbm, ⟨17, _⟩ => ⟨S1024x256, .f32⟩
  | .hbm, ⟨18, _⟩ => ⟨S16384x2000, .f32⟩
  | .hbm, ⟨19, _⟩ => ⟨S1x2000, .f32⟩
  | .hbm, ⟨20, _⟩ => ⟨S16384x2000, .f32⟩
  | .hbm, ⟨21, _⟩ => ⟨S16384x2000, .f32⟩
  | .hbm, ⟨22, _⟩ => ⟨S_, .f32⟩
  | .hbm, ⟨23, _⟩ => ⟨S16384x2000, .f32⟩
  | .hbm, ⟨24, _⟩ => ⟨S16384x2000, .f32⟩
  | .hbm, ⟨25, _⟩ => ⟨S16384x2000, .f32⟩
  | .hbm, ⟨26, _⟩ => ⟨S1x2000, .f32⟩
  | .hbm, ⟨27, _⟩ => ⟨S16384x2000, .f32⟩
  | .hbm, ⟨28, _⟩ => ⟨S16384x2000, .f32⟩
  | .hbm, ⟨29, _⟩ => ⟨S_, .f32⟩
  | .hbm, ⟨30, _⟩ => ⟨S16384x2000, .f32⟩
  | .hbm, ⟨31, _⟩ => ⟨S16384x2000, .f32⟩
  | .hbm, ⟨32, _⟩ => ⟨S16384x500, .f32⟩
  | .hbm, ⟨33, _⟩ => ⟨S1x500, .f32⟩
  | .hbm, ⟨34, _⟩ => ⟨S16384x500, .f32⟩
  | .hbm, ⟨35, _⟩ => ⟨S16384x500, .f32⟩
  | .hbm, ⟨36, _⟩ => ⟨S_, .f32⟩
  | .hbm, ⟨37, _⟩ => ⟨S16384x500, .f32⟩
  | .hbm, ⟨38, _⟩ => ⟨S16384x500, .f32⟩
  | .hbm, ⟨39, _⟩ => ⟨S16384x256, .f32⟩
  | .hbm, ⟨40, _⟩ => ⟨S1x256, .f32⟩
  | .hbm, ⟨41, _⟩ => ⟨S16384x256, .f32⟩
  | .hbm, ⟨42, _⟩ => ⟨S16384x256, .f32⟩
  | .hbm, ⟨43, _⟩ => ⟨S16384x500, .f32⟩
  | .hbm, ⟨44, _⟩ => ⟨S1x500, .f32⟩
  | .hbm, ⟨45, _⟩ => ⟨S16384x500, .f32⟩
  | .hbm, ⟨46, _⟩ => ⟨S16384x500, .f32⟩
  | .hbm, ⟨47, _⟩ => ⟨S_, .f32⟩
  | .hbm, ⟨48, _⟩ => ⟨S16384x500, .f32⟩
  | .hbm, ⟨49, _⟩ => ⟨S16384x500, .f32⟩
  | .hbm, ⟨50, _⟩ => ⟨S16384x2000, .f32⟩
  | .hbm, ⟨51, _⟩ => ⟨S1x2000, .f32⟩
  | .hbm, ⟨52, _⟩ => ⟨S16384x2000, .f32⟩
  | .hbm, ⟨53, _⟩ => ⟨S16384x2000, .f32⟩
  | .hbm, ⟨54, _⟩ => ⟨S_, .f32⟩
  | .hbm, ⟨55, _⟩ => ⟨S16384x2000, .f32⟩
  | .hbm, ⟨56, _⟩ => ⟨S16384x2000, .f32⟩
  | .hbm, ⟨57, _⟩ => ⟨S16384x2000, .f32⟩
  | .hbm, ⟨58, _⟩ => ⟨S1x2000, .f32⟩
  | .hbm, ⟨59, _⟩ => ⟨S16384x2000, .f32⟩
  | .hbm, ⟨60, _⟩ => ⟨S16384x2000, .f32⟩
  | .hbm, ⟨61, _⟩ => ⟨S_, .f32⟩
  | .hbm, ⟨62, _⟩ => ⟨S16384x2000, .f32⟩
  | .hbm, ⟨63, _⟩ => ⟨S16384x2000, .f32⟩
  | .hbm, ⟨64, _⟩ => ⟨S16384x784, .f32⟩
  | .hbm, ⟨65, _⟩ => ⟨S1x784, .f32⟩
  | .hbm, ⟨66, _⟩ => ⟨S16384x784, .f32⟩
  | .hbm, ⟨67, _⟩ => ⟨S16384x784, .f32⟩
  | .hbm, ⟨68, _⟩ => ⟨S16384x256, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S1024x256, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S256x1024, .f32⟩
  | .hbm, ⟨80, _⟩ => ⟨S16384x1024, .f32⟩
  | .hbm, ⟨81, _⟩ => ⟨S_, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S_, .f32⟩
  | .hbm, ⟨86, _⟩ => ⟨S16384x1024, .f32⟩
  | .hbm, ⟨87, _⟩ => ⟨S16384x1024, .f32⟩
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call2_cst : Ref sig .tc := ⟨.hbm, 36, rfl⟩
abbrev main_call2_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call3_cst : Ref sig .tc := ⟨.hbm, 47, rfl⟩
abbrev main_call3_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_call4_cst : Ref sig .tc := ⟨.hbm, 54, rfl⟩
abbrev main_call4_v0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call5_cst : Ref sig .tc := ⟨.hbm, 61, rfl⟩
abbrev main_call5_v0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_0 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_1 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_2 : Ref sig .tc := ⟨.hbm, 85, rfl⟩
abbrev main_v52 : Ref sig .tc := ⟨.hbm, 86, rfl⟩
abbrev main_v53 : Ref sig .tc := ⟨.hbm, 87, rfl⟩

abbrev nD : Nat := 1
abbrev τ : Topo := Topo.v7x

variable {F : FTy → Type} [FloatOps F]

class Facts₀ : Prop where
  bcast_S2000_S1x2000_1 : S2000.BroadcastsInDim S1x2000 (![1] : Fin 1 → Fin S1x2000.rank)
  bcast_S1x2000_S16384x2000_0_1 : S1x2000.BroadcastsInDim S16384x2000 (![0, 1] : Fin 2 → Fin S16384x2000.rank)
  bcast_S_S16384x2000 : S_.BroadcastsInDim S16384x2000 (![] : Fin 0 → Fin S16384x2000.rank)
  bcast_S500_S1x500_1 : S500.BroadcastsInDim S1x500 (![1] : Fin 1 → Fin S1x500.rank)
  bcast_S1x500_S16384x500_0_1 : S1x500.BroadcastsInDim S16384x500 (![0, 1] : Fin 2 → Fin S16384x500.rank)
  bcast_S_S16384x500 : S_.BroadcastsInDim S16384x500 (![] : Fin 0 → Fin S16384x500.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S784_S1x784_1 : S784.BroadcastsInDim S1x784 (![1] : Fin 1 → Fin S1x784.rank)
  bcast_S1x784_S16384x784_0_1 : S1x784.BroadcastsInDim S16384x784 (![0, 1] : Fin 2 → Fin S16384x784.rank)
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S1024x256_S1024_d1 : S1024x256.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  transposes_S1024x256_S256x1024_1_0 : S1024x256.Transposes [1, 0] S256x1024
  bcast_S_S16384x1024 : S_.BroadcastsInDim S16384x1024 (![] : Fin 0 → Fin S16384x1024.rank)
  dot_S16384x784_S784x2000_S16384x2000_1_0_0_1_n_n_wf : DotDims.WF S16384x784 S784x2000 S16384x2000 [1] [0] [0] [1] [] []
  dot_S16384x2000_S2000x2000_S16384x2000_1_0_0_1_n_n_wf : DotDims.WF S16384x2000 S2000x2000 S16384x2000 [1] [0] [0] [1] [] []
  dot_S16384x2000_S2000x500_S16384x500_1_0_0_1_n_n_wf : DotDims.WF S16384x2000 S2000x500 S16384x500 [1] [0] [0] [1] [] []
  dot_S16384x500_S500x256_S16384x256_1_0_0_1_n_n_wf : DotDims.WF S16384x500 S500x256 S16384x256 [1] [0] [0] [1] [] []
  dot_S16384x256_S256x500_S16384x500_1_0_0_1_n_n_wf : DotDims.WF S16384x256 S256x500 S16384x500 [1] [0] [0] [1] [] []
  dot_S16384x500_S500x2000_S16384x2000_1_0_0_1_n_n_wf : DotDims.WF S16384x500 S500x2000 S16384x2000 [1] [0] [0] [1] [] []
  dot_S16384x2000_S2000x784_S16384x784_1_0_0_1_n_n_wf : DotDims.WF S16384x2000 S2000x784 S16384x784 [1] [0] [0] [1] [] []
  dot_S16384x256_S256x1024_S16384x1024_1_0_0_1_n_n_wf : DotDims.WF S16384x256 S256x1024 S16384x1024 [1] [0] [0] [1] [] []

variable [Facts₀]

def dot_S16384x784_S784x2000_S16384x2000_1_0_0_1_n_n : DotDims S16384x784 S784x2000 S16384x2000 where
  lhsContracting := [1]
  rhsContracting := [0]
  lhsNonContracting := [0]
  rhsNonContracting := [1]
  lhsBatch := []
  rhsBatch := []
  wf := dot_S16384x784_S784x2000_S16384x2000_1_0_0_1_n_n_wf
def dot_S16384x2000_S2000x2000_S16384x2000_1_0_0_1_n_n : DotDims S16384x2000 S2000x2000 S16384x2000 where
  lhsContracting := [1]
  rhsContracting := [0]
  lhsNonContracting := [0]
  rhsNonContracting := [1]
  lhsBatch := []
  rhsBatch := []
  wf := dot_S16384x2000_S2000x2000_S16384x2000_1_0_0_1_n_n_wf
def dot_S16384x2000_S2000x500_S16384x500_1_0_0_1_n_n : DotDims S16384x2000 S2000x500 S16384x500 where
  lhsContracting := [1]
  rhsContracting := [0]
  lhsNonContracting := [0]
  rhsNonContracting := [1]
  lhsBatch := []
  rhsBatch := []
  wf := dot_S16384x2000_S2000x500_S16384x500_1_0_0_1_n_n_wf
def dot_S16384x500_S500x256_S16384x256_1_0_0_1_n_n : DotDims S16384x500 S500x256 S16384x256 where
  lhsContracting := [1]
  rhsContracting := [0]
  lhsNonContracting := [0]
  rhsNonContracting := [1]
  lhsBatch := []
  rhsBatch := []
  wf := dot_S16384x500_S500x256_S16384x256_1_0_0_1_n_n_wf
def dot_S16384x256_S256x500_S16384x500_1_0_0_1_n_n : DotDims S16384x256 S256x500 S16384x500 where
  lhsContracting := [1]
  rhsContracting := [0]
  lhsNonContracting := [0]
  rhsNonContracting := [1]
  lhsBatch := []
  rhsBatch := []
  wf := dot_S16384x256_S256x500_S16384x500_1_0_0_1_n_n_wf
def dot_S16384x500_S500x2000_S16384x2000_1_0_0_1_n_n : DotDims S16384x500 S500x2000 S16384x2000 where
  lhsContracting := [1]
  rhsContracting := [0]
  lhsNonContracting := [0]
  rhsNonContracting := [1]
  lhsBatch := []
  rhsBatch := []
  wf := dot_S16384x500_S500x2000_S16384x2000_1_0_0_1_n_n_wf
def dot_S16384x2000_S2000x784_S16384x784_1_0_0_1_n_n : DotDims S16384x2000 S2000x784 S16384x784 where
  lhsContracting := [1]
  rhsContracting := [0]
  lhsNonContracting := [0]
  rhsNonContracting := [1]
  lhsBatch := []
  rhsBatch := []
  wf := dot_S16384x2000_S2000x784_S16384x784_1_0_0_1_n_n_wf
def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf

class Facts : Prop extends Facts₀ where

variable [Facts]
-- ==== Proof.KernelRun.lean ====
/-
  The kernel program's run with its two results named.

  Every weakly fair execution of the program from a memory with zero counters terminates without a fault, and in the
  final state each result buffer holds what the fold of the program's segments — host stretches and the five regions'
  write-backs — leaves at that buffer, while the argument arrays are as launched. The statement strengthens the frame
  claim by reading the last thread state at the two result buffers as well as at the arguments.
-/
import proofs.«125961_j2808908612213_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the decoded array and the distance array end at the last boundary's contents; the arguments are kept. -/
theorem run_all : θ_run defs (onTc (τ := τ) (main (F := F))) ⟨m, fun _ => 0, ρ⟩ (fun r => ∀ c : Dev nD,
      r.2.mem ((c.tc : Thread nD τ).loc main_v24) = W10 m ρ c (Proc.devRef .tc main_v24)
      ∧ r.2.mem ((c.tc : Thread nD τ).loc main_v18_1) = W10 m ρ c (Proc.devRef .tc main_v18_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v24 (by decide)),
       h c _ (mem_uc main_v18_1 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c)⟩)

end Cert.KernelIdeal.Whole

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.Layer0.lean ====
/-
  Dense layer 0 of the kernel program: what its output array holds after the region.

  The region's grid has 16 points; point t reads rows 1024·t … 1024·t + 1023 of the activation array, the whole
  weight matrix and the whole bias row, and writes rows 1024·t … 1024·t + 1023 of the output array. The body's
  stored value is the rectified affine layer of its three loaded blocks (format changes are the identity on the extended
  reals), so what point t writes back is the block of rows of the rectified affine layer of the WHOLE arrays, and the
  sixteen blocks tile the output array.
-/
import proofs.«125961_j2808908612213_2_alg».proof.Proof.Gen.KernelIdeal.Frame
import proofs.«125961_j2808908612213_2_alg».proof.Proof.LibDense

set_option maxRecDepth 16384

noncomputable section

namespace Cert.KernelIdeal.Layer0

open Idealize.ShloMosaic Idealize.ShloMosaic.TcCoe Idealize.SL.Sem Idealize.ShloMosaic.ValueIdx
open Cert.KernelIdeal Cert.KernelIdeal.Gen Cert.Dense
open Idealize.ShloMosaic.Pipeline (Dat Cfg Window)

/-- The body's stored value: the product of the activation block with the weights, plus the bias row, rectified. -/
theorem pay_eq (x0 : Vec Ideal S1024x784 .f32) (x1 : Vec Ideal S784x2000 .bf16) (x2 : Vec Ideal S1x2000 .f32) :
    k0_pay1 x0 x1 x2 = relu (affine2 x0 x1 x2) := by
  unfold k0_pay1
  dsimp only
  simp only [shapeCast_self, truncf_id]
  rw [show dot_S1024x784_S784x2000_S1024x2000_1_0_0_1_n_n = DotDims.plain 1024 784 2000 from rfl]
  exact (maximumf_splat_zero _).trans (congrArg relu (addf_matmul_broadcastTo none x0 x1 x2 _))

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the activation and output windows move one block of rows per point; the weights and
    the bias stay. -/
theorem idx_facts : ∀ t : Fin cfg0.N, win0_0.index t (0 : Fin 2) = t.val
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block is row 1024·t + p of the array. -/
def row (t : Fin cfg0.N) (p : Fin 1024) : Fin 16384 :=
  ⟨t.val * 1024 + p.val, by have := t.isLt; have h : cfg0.N = 16 := N_0; omega⟩

/-- The activation block at point t, entry (p, k), is the array's entry (1024·t + p, k). -/
theorem blk0_eq (c : Dev nD) (t : Fin cfg0.N) (p : Fin 1024) (k : Fin 784) :
    iblk0 V c 0 t (ix2 p k) = V c main_arg0 (ix2 (row t p) k) := by
  obtain ⟨e0, e1, -⟩ := idx_facts t
  show V c main_arg0 (((cfg0.win 0).blk t).view.emb (ix2 p k)) = V c main_arg0 (ix2 (row t p) k)
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 784 + 1 * k.val = k.val; omega

/-- The weight block at every point is the whole weight matrix. -/
theorem blk1_eq (c : Dev nD) (t : Fin cfg0.N) : iblk0 V c 1 t = V c main_v0 := by
  obtain ⟨-, -, e0, e1, -⟩ := idx_facts t
  funext y
  show V c main_v0 (((cfg0.win 1).blk t).view.emb y) = V c main_v0 y
  refine congrArg _ (funext fun a => Fin.ext ?_)
  match a with
  | ⟨0, _⟩ => show win0_1.index t (0 : Fin 2) * 784 + 1 * (y 0).val = (y 0).val; omega
  | ⟨1, _⟩ => show win0_1.index t (1 : Fin 2) * 2000 + 1 * (y 1).val = (y 1).val; omega

/-- The bias block at every point is the whole bias row. -/
theorem blk2_eq (c : Dev nD) (t : Fin cfg0.N) : iblk0 V c 2 t = V c main_v1 := by
  obtain ⟨-, -, -, -, e0, e1, -⟩ := idx_facts t
  funext y
  show V c main_v1 (((cfg0.win 2).blk t).view.emb y) = V c main_v1 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 2000 + 1 * (y 1).val = (y 1).val; omega

/-- Entry (p, q) of the output block of point t is entry (1024·t + p, q) of the output array. -/
theorem emb3_eq (t : Fin cfg0.N) (p : Fin 1024) (q : Fin 2000) :
    ((cfg0.win 3).blk t).view.emb (ix2 p q) = ix2 (row t p) q := by
  obtain ⟨-, -, -, -, -, -, e0, e1⟩ := idx_facts t
  refine funext fun a => Fin.ext ?_
  match a with
  | ⟨0, _⟩ => show win0_3.index t (0 : Fin 2) * 1024 + 1 * p.val = t.val * 1024 + p.val; omega
  | ⟨1, _⟩ => show win0_3.index t (1 : Fin 2) * 2000 + 1 * q.val = q.val; omega

/-- What point t writes back is its block of rows of the rectified affine layer of the whole arrays. -/
theorem flushed_eq (c : Dev nD) (t : Fin cfg0.N) :
    (dat0 V c).flushed 3 t = ((cfg0.win 3).blk t).view.read (Elt Ideal) (relu (affine2 (V c main_arg0) (V c main_v0) (V c main_v1))) := by
  show (cfg0.win 3).cut (grid0.coords t) ((dat0 V c).after 3 t) = _
  rw [after0_3]
  unfold out0_3
  rw [View.canon_unit_zero hz]
  simp only [View.ld_unit_zero (S := S1024x784) hz, View.ld_unit_zero (S := S784x2000) hz, View.ld_unit_zero (S := S1x2000) hz]
  rw [pay_eq, blk1_eq, blk2_eq]
  funext j
  obtain ⟨p, q, rfl⟩ : ∃ (p : Fin 1024) (q : Fin 2000), j = ix2 p q := ⟨j 0, j 1, eq_ix2 j⟩
  show relu (affine2 (iblk0 V c 0 t) (V c main_v0) (V c main_v1)) (ix2 p q)
    = (relu (affine2 (V c main_arg0) (V c main_v0) (V c main_v1))) (((cfg0.win 3).blk t).view.emb (ix2 p q))
  rw [emb3_eq]
  exact relu_affine2_rows (V c main_arg0) (iblk0 V c 0 t) (V c main_v0) (V c main_v1) (row t) (blk0_eq V c t) p q

/-- An index of the array is in point t's block iff each coordinate is in the block's range on its axis. -/
theorem mem_blk (t : Fin cfg0.N) (i : S16384x2000.Idx) :
    i ∈ ((cfg0.win 3).blk t).view.set ↔ ∀ a : Fin 2, win0_3.index t a * S1024x2000.size a ≤ (i a).val ∧ (i a).val < win0_3.index t a * S1024x2000.size a + S1024x2000.size a := by
  show i ∈ ((View.whole main_v2).slice (win0_3.rect t)).set ↔ _
  rw [View.set_slice_whole, Rect.mem_set_unit]
  exact Iff.rfl

/-- Row r of the output array lies in the block of point r / 1024. -/
theorem cover (i : S16384x2000.Idx) : ∃ t : Fin cfg0.N, (cfg0.win 3).flush t = true ∧ i ∈ ((cfg0.win 3).blk t).view.set := by
  have hi0 : (i 0).val < 16384 := (i 0).isLt
  have hi1 : (i 1).val < 2000 := (i 1).isLt
  have hN : cfg0.N = 16 := N_0
  obtain ⟨t, ht⟩ : ∃ t : Fin cfg0.N, t.val = (i 0).val / 1024 := ⟨⟨(i 0).val / 1024, by omega⟩, rfl⟩
  obtain ⟨-, -, -, -, -, -, e0, e1⟩ := idx_facts t
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2000 ≤ (i 1).val ∧ (i 1).val < win0_3.index t (1 : Fin 2) * 2000 + 2000; omega

/-- The output array after the region: the rectified affine layer of the arrays the region finds. -/
theorem final (c : Dev nD) :
    (dat0 V c).arrAt 3 cfg0.N = relu (affine2 (V c main_arg0) (V c main_v0) (V c main_v1)) :=
  (dat0 V c).arrAt_eq_of_cover 3 _ (fun t _ => flushed_eq V c t) cover

end Cert.KernelIdeal.Layer0

end
-- ==== Proof.Layer1.lean ====
/-
  Dense layer 1 of the kernel program: what its output array holds after the region.

  The region's grid has 16 points; point t reads rows 1024·t … 1024·t + 1023 of the activation array, the whole
  weight matrix and the whole bias row, and writes rows 1024·t … 1024·t + 1023 of the output array. The body's
  stored value is the rectified affine layer of its three loaded blocks (format changes are the identity on the extended
  reals), so what point t writes back is the block of rows of the rectified affine layer of the WHOLE arrays, and the
  sixteen blocks tile the output array.
-/
import proofs.«125961_j2808908612213_2_alg».proof.Proof.Gen.KernelIdeal.Frame
import proofs.«125961_j2808908612213_2_alg».proof.Proof.LibDense

set_option maxRecDepth 16384

noncomputable section

namespace Cert.KernelIdeal.Layer1

open Idealize.ShloMosaic Idealize.ShloMosaic.TcCoe Idealize.SL.Sem Idealize.ShloMosaic.ValueIdx
open Cert.KernelIdeal Cert.KernelIdeal.Gen Cert.Dense
open Idealize.ShloMosaic.Pipeline (Dat Cfg Window)

/-- The body's stored value: the product of the activation block with the weights, plus the bias row, rectified. -/
theorem pay_eq (x0 : Vec Ideal S1024x2000 .bf16) (x1 : Vec Ideal S2000x2000 .bf16) (x2 : Vec Ideal S1x2000 .f32) :
    k1_pay1 x0 x1 x2 = relu (affine2 x0 x1 x2) := by
  unfold k1_pay1
  dsimp only
  simp only [shapeCast_self, truncf_id]
  rw [show dot_S1024x2000_S2000x2000_S1024x2000_1_0_0_1_n_n = DotDims.plain 1024 2000 2000 from rfl]
  exact (maximumf_splat_zero _).trans (congrArg relu (addf_matmul_broadcastTo none x0 x1 x2 _))

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the activation and output windows move one block of rows per point; the weights and
    the bias stay. -/
theorem idx_facts : ∀ t : Fin cfg1.N, win1_0.index t (0 : Fin 2) = t.val
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block is row 1024·t + p of the array. -/
def row (t : Fin cfg1.N) (p : Fin 1024) : Fin 16384 :=
  ⟨t.val * 1024 + p.val, by have := t.isLt; have h : cfg1.N = 16 := N_1; omega⟩

/-- The activation block at point t, entry (p, k), is the array's entry (1024·t + p, k). -/
theorem blk0_eq (c : Dev nD) (t : Fin cfg1.N) (p : Fin 1024) (k : Fin 2000) :
    iblk1 V c 0 t (ix2 p k) = V c main_v2 (ix2 (row t p) k) := by
  obtain ⟨e0, e1, -⟩ := idx_facts t
  show V c main_v2 (((cfg1.win 0).blk t).view.emb (ix2 p k)) = V c main_v2 (ix2 (row t p) k)
  refine congrArg _ (funext fun a => Fin.ext ?_)
  match a with
  | ⟨0, _⟩ => show win1_0.index t (0 : Fin 2) * 1024 + 1 * p.val = t.val * 1024 + p.val; omega
  | ⟨1, _⟩ => show win1_0.index t (1 : Fin 2) * 2000 + 1 * k.val = k.val; omega

/-- The weight block at every point is the whole weight matrix. -/
theorem blk1_eq (c : Dev nD) (t : Fin cfg1.N) : iblk1 V c 1 t = V c main_v3 := by
  obtain ⟨-, -, e0, e1, -⟩ := idx_facts t
  funext y
  show V c main_v3 (((cfg1.win 1).blk t).view.emb y) = V c main_v3 y
  refine congrArg _ (funext fun a => Fin.ext ?_)
  match a with
  | ⟨0, _⟩ => show win1_1.index t (0 : Fin 2) * 2000 + 1 * (y 0).val = (y 0).val; omega
  | ⟨1, _⟩ => show win1_1.index t (1 : Fin 2) * 2000 + 1 * (y 1).val = (y 1).val; omega

/-- The bias block at every point is the whole bias row. -/
theorem blk2_eq (c : Dev nD) (t : Fin cfg1.N) : iblk1 V c 2 t = V c main_v4 := by
  obtain ⟨-, -, -, -, e0, e1, -⟩ := idx_facts t
  funext y
  show V c main_v4 (((cfg1.win 2).blk t).view.emb y) = V c main_v4 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 2000 + 1 * (y 1).val = (y 1).val; omega

/-- Entry (p, q) of the output block of point t is entry (1024·t + p, q) of the output array. -/
theorem emb3_eq (t : Fin cfg1.N) (p : Fin 1024) (q : Fin 2000) :
    ((cfg1.win 3).blk t).view.emb (ix2 p q) = ix2 (row t p) q := by
  obtain ⟨-, -, -, -, -, -, e0, e1⟩ := idx_facts t
  refine funext fun a => Fin.ext ?_
  match a with
  | ⟨0, _⟩ => show win1_3.index t (0 : Fin 2) * 1024 + 1 * p.val = t.val * 1024 + p.val; omega
  | ⟨1, _⟩ => show win1_3.index t (1 : Fin 2) * 2000 + 1 * q.val = q.val; omega

/-- What point t writes back is its block of rows of the rectified affine layer of the whole arrays. -/
theorem flushed_eq (c : Dev nD) (t : Fin cfg1.N) :
    (dat1 V c).flushed 3 t = ((cfg1.win 3).blk t).view.read (Elt Ideal) (relu (affine2 (V c main_v2) (V c main_v3) (V c main_v4))) := by
  show (cfg1.win 3).cut (grid1.coords t) ((dat1 V c).after 3 t) = _
  rw [after1_3]
  unfold out1_3
  rw [View.canon_unit_zero hz]
  simp only [View.ld_unit_zero (S := S1024x2000) hz, View.ld_unit_zero (S := S2000x2000) hz, View.ld_unit_zero (S := S1x2000) hz]
  rw [pay_eq, blk1_eq, blk2_eq]
  funext j
  obtain ⟨p, q, rfl⟩ : ∃ (p : Fin 1024) (q : Fin 2000), j = ix2 p q := ⟨j 0, j 1, eq_ix2 j⟩
  show relu (affine2 (iblk1 V c 0 t) (V c main_v3) (V c main_v4)) (ix2 p q)
    = (relu (affine2 (V c main_v2) (V c main_v3) (V c main_v4))) (((cfg1.win 3).blk t).view.emb (ix2 p q))
  rw [emb3_eq]
  exact relu_affine2_rows (V c main_v2) (iblk1 V c 0 t) (V c main_v3) (V c main_v4) (row t) (blk0_eq V c t) p q

/-- An index of the array is in point t's block iff each coordinate is in the block's range on its axis. -/
theorem mem_blk (t : Fin cfg1.N) (i : S16384x2000.Idx) :
    i ∈ ((cfg1.win 3).blk t).view.set ↔ ∀ a : Fin 2, win1_3.index t a * S1024x2000.size a ≤ (i a).val ∧ (i a).val < win1_3.index t a * S1024x2000.size a + S1024x2000.size a := by
  show i ∈ ((View.whole main_v5).slice (win1_3.rect t)).set ↔ _
  rw [View.set_slice_whole, Rect.mem_set_unit]
  exact Iff.rfl

/-- Row r of the output array lies in the block of point r / 1024. -/
theorem cover (i : S16384x2000.Idx) : ∃ t : Fin cfg1.N, (cfg1.win 3).flush t = true ∧ i ∈ ((cfg1.win 3).blk t).view.set := by
  have hi0 : (i 0).val < 16384 := (i 0).isLt
  have hi1 : (i 1).val < 2000 := (i 1).isLt
  have hN : cfg1.N = 16 := N_1
  obtain ⟨t, ht⟩ : ∃ t : Fin cfg1.N, t.val = (i 0).val / 1024 := ⟨⟨(i 0).val / 1024, by omega⟩, rfl⟩
  obtain ⟨-, -, -, -, -, -, e0, e1⟩ := idx_facts t
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 2000 ≤ (i 1).val ∧ (i 1).val < win1_3.index t (1 : Fin 2) * 2000 + 2000; omega

/-- The output array after the region: the rectified affine layer of the arrays the region finds. -/
theorem final (c : Dev nD) :
    (dat1 V c).arrAt 3 cfg1.N = relu (affine2 (V c main_v2) (V c main_v3) (V c main_v4)) :=
  (dat1 V c).arrAt_eq_of_cover 3 _ (fun t _ => flushed_eq V c t) cover

end Cert.KernelIdeal.Layer1

end
-- ==== Proof.LibSom.lean ====
/-
  Squared distances between the rows of one matrix and the columns of another, in product form.

  For a matrix Z (rows z_p) and a matrix PT whose columns w_q have squared lengths n2_q, the entry (p, q) is
  |z_p|² + n2_q − c · (z_p · w_q), cut at zero, with c the constant the literal 2.0 denotes. The vector unit computes
  it on a block of rows — the squared lengths by a lane sum kept as a column, the dot products by a matrix product,
  the two broadcast against each other — and the host on the whole array, by its own sum, its general dot product and
  its broadcasts; both are this function, entry by entry.
-/
import proofs.«125961_j2808908612213_2_alg».proof.Proof.LibDense

noncomputable section

open scoped BigOperators

namespace Cert.Dense

open Idealize.ShloMosaic Idealize.ShloMosaic.ValueIdx

variable {M K N : ℕ}

/-- The squared length of row p. -/
def sq (Z : Mat M K) (p : Fin M) : EReal := ∑ k : Fin K, Z (ix2 p k) * Z (ix2 p k)

/-- Squared distances in product form, the columns' squared lengths given as a one-row matrix. -/
def som2 (two : EReal) (Z : Mat M K) (PT : Mat K N) (n2 : Mat 1 N) : Mat M N :=
  fun i => max (sq Z (i 0) + n2 (ix2 (0 : Fin 1) (i 1)) - two * mm Z PT i) 0

/-- The same with the squared lengths given as a row vector. -/
def som (two : EReal) (Z : Mat M K) (PT : Mat K N) (n2 : Row N) : Mat M N :=
  fun i => max (sq Z (i 0) + n2 (ix1 (i 1)) - two * mm Z PT i) 0

theorem som2_eq_som (two : EReal) (Z : Mat M K) (PT : Mat K N) (n2 : Row N) (n2' : Mat 1 N)
    (h : ∀ q : Fin N, n2' (ix2 (0 : Fin 1) q) = n2 (ix1 q)) : som2 two Z PT n2' = som two Z PT n2 := by
  funext i
  obtain ⟨p, q, rfl⟩ : ∃ (p : Fin M) (q : Fin N), i = ix2 p q := ⟨i 0, i 1, eq_ix2 i⟩
  show max (sq Z p + n2' (ix2 (0 : Fin 1) q) - two * mm Z PT (ix2 p q)) 0 = max (sq Z p + n2 (ix1 q) - two * mm Z PT (ix2 p q)) 0
  rw [h]

/-- Rows of the distances: on a block of rows of Z they are the distances of the whole Z at those rows. -/
theorem som2_rows {M' : ℕ} (two : EReal) (A : Mat M' K) (blk : Mat M K) (PT : Mat K N) (n2 : Mat 1 N) (ρ : Fin M → Fin M')
    (h : ∀ p k, blk (ix2 p k) = A (ix2 (ρ p) k)) (p : Fin M) (q : Fin N) :
    som2 two blk PT n2 (ix2 p q) = som2 two A PT n2 (ix2 (ρ p) q) := by
  show max (sq blk p + n2 (ix2 (0 : Fin 1) q) - two * mm blk PT (ix2 p q)) 0 = max (sq A (ρ p) + n2 (ix2 (0 : Fin 1) q) - two * mm A PT (ix2 (ρ p) q)) 0
  rw [mm_rows A blk PT ρ h p q]
  have hs : sq blk p = sq A (ρ p) := Finset.sum_congr rfl fun k _ => by rw [h p k]
  rw [hs]

/-- The vector unit's form. -/
theorem kernel_som (z : FVec Ideal ⟨2, ![M, K]⟩ .f32) (pt : FVec Ideal ⟨2, ![K, N]⟩ .f32) (n2 : FVec Ideal ⟨2, ![1, N]⟩ .f32)
    (prec : Option ContractPrecision)
    (hred : (⟨2, ![M, K]⟩ : Shape).Reduces [1] ⟨1, ![M]⟩) (hφ : FKind.Formats .f32) (hacc : (0x00000000#32 : BitVec 32) = FKind.add.neutral .f32 hφ)
    (hlift : ∀ (p : Fin M) (k : Fin K), hred.lift (ix1 p) k = ix2 p k)
    (hsc : (⟨1, ![M]⟩ : Shape).ShapeCasts ⟨2, ![M, 1]⟩)
    (hb1 : (⟨2, ![M, 1]⟩ : Shape).Broadcasts ⟨2, ![M, N]⟩) (hb2 : (⟨2, ![1, N]⟩ : Shape).Broadcasts ⟨2, ![M, N]⟩) :
    maximumf (subf (addf (broadcastTo ⟨2, ![M, N]⟩ (shapeCast ⟨2, ![M, 1]⟩ (multiReduction .add [1] ⟨1, ![M]⟩ (mulf z z) 0x00000000#32 hred hφ hacc) hsc) hb1)
                         (broadcastTo ⟨2, ![M, N]⟩ n2 hb2))
                   (mulf (broadcast ⟨2, ![M, N]⟩ (Scalar.ofBits (F := Ideal) .f32 0x40000000#32))
                         (matmul (DotDims.plain M K N) prec z pt (constant (F := Ideal) ⟨2, ![M, N]⟩ .f32 0x00000000#32))))
             (broadcast ⟨2, ![M, N]⟩ (Scalar.ofBits (F := Ideal) .f32 0x00000000#32))
      = som2 (Ideal.ofBits .f32 0x40000000#32) z pt n2 := by
  rw [matmul_plain_zero]
  funext i
  obtain ⟨p, q, rfl⟩ : ∃ (p : Fin M) (q : Fin N), i = ix2 p q := ⟨i 0, i 1, eq_ix2 i⟩
  show max (broadcastTo ⟨2, ![M, N]⟩ (shapeCast ⟨2, ![M, 1]⟩ (multiReduction .add [1] ⟨1, ![M]⟩ (mulf z z) 0x00000000#32 hred hφ hacc) hsc) hb1 (ix2 p q)
        + broadcastTo ⟨2, ![M, N]⟩ n2 hb2 (ix2 p q) - Ideal.ofBits .f32 0x40000000#32 * mm z pt (ix2 p q)) (Ideal.ofBits .f32 0x00000000#32)
      = max (sq z p + n2 (ix2 (0 : Fin 1) q) - Ideal.ofBits .f32 0x40000000#32 * mm z pt (ix2 p q)) 0
  rw [Ideal.ofBits_zero_f32, broadcastTo_1b_ab_apply]
  rw [broadcastTo_apply _ hb1 (ix2 p q) (ix2 p (0 : Fin 1)) (fun ax => by
      match ax with
      | ⟨0, _⟩ =>
        show p.val = if M = 1 then 0 else p.val
        split
        · have := p.isLt; omega
        · rfl
      | ⟨1, _⟩ => rfl)]
  rw [shapeCast_apply _ hsc (ix2 p (0 : Fin 1)) (ix1 p) (by
      rw [Shape.rowMajor_val_two, Shape.rowMajor_val_one]
      show p.val = p.val * 1 + 0
      omega)]
  rw [Ideal.multiReduction_add_single]
  refine congrArg (fun x => max (x + n2 (ix2 (0 : Fin 1) q) - Ideal.ofBits .f32 0x40000000#32 * mm z pt (ix2 p q)) 0) ?_
  exact Finset.sum_congr rfl fun k _ => by rw [hlift p k]; rfl

/-- The host's form. -/
theorem host_som (z : FVec Ideal ⟨2, ![M, K]⟩ .f32) (pt : FVec Ideal ⟨2, ![K, N]⟩ .f32) (n2 : FVec Ideal ⟨1, ![N]⟩ .f32)
    (hrt : (⟨2, ![M, K]⟩ : Shape).ReducesTo [1] ⟨1, ![M]⟩) (hS : 0 < (⟨0, ![]⟩ : Shape).numel)
    (hred : (⟨2, ![M, K]⟩ : Shape).Reduces [1] ⟨1, ![M]⟩)
    (hlift : ∀ (p : Fin M) (k : Fin K), hred.lift (ix1 p) k = ix2 p k)
    (h40 : (⟨1, ![M]⟩ : Shape).BroadcastsInDim ⟨2, ![M, 1]⟩ ![0])
    (h44 : (⟨2, ![M, 1]⟩ : Shape).BroadcastsInDim ⟨2, ![M, N]⟩ ![0, 1])
    (h43 : (⟨1, ![N]⟩ : Shape).BroadcastsInDim ⟨2, ![1, N]⟩ ![1])
    (h45 : (⟨2, ![1, N]⟩ : Shape).BroadcastsInDim ⟨2, ![M, N]⟩ ![0, 1])
    (h49 h52 : (⟨0, ![]⟩ : Shape).BroadcastsInDim ⟨2, ![M, N]⟩ ![]) :
    maximumf (subf (addf (broadcastInDim ⟨2, ![M, N]⟩ ![0, 1] h44 (broadcastInDim ⟨2, ![M, 1]⟩ ![0] h40
                            (Host.reduceAdd (mulf z z) (constant (F := Ideal) ⟨0, ![]⟩ .f32 0x00000000#32) hrt hS)))
                         (broadcastInDim ⟨2, ![M, N]⟩ ![0, 1] h45 (broadcastInDim ⟨2, ![1, N]⟩ ![1] h43 n2)))
                   (mulf (broadcastInDim ⟨2, ![M, N]⟩ ![] h49 (constant (F := Ideal) ⟨0, ![]⟩ .f32 0x40000000#32))
                         (Host.dotGeneral (F := Ideal) (DotDims.plain M K N) none z pt)))
             (broadcastInDim ⟨2, ![M, N]⟩ ![] h52 (constant (F := Ideal) ⟨0, ![]⟩ .f32 0x00000000#32))
      = som (Ideal.ofBits .f32 0x40000000#32) z pt n2 := by
  rw [dotGeneral_plain]
  funext i
  obtain ⟨p, q, rfl⟩ : ∃ (p : Fin M) (q : Fin N), i = ix2 p q := ⟨i 0, i 1, eq_ix2 i⟩
  show max (broadcastInDim ⟨2, ![M, N]⟩ ![0, 1] h44 (broadcastInDim ⟨2, ![M, 1]⟩ ![0] h40
              (Host.reduceAdd (mulf z z) (constant (F := Ideal) ⟨0, ![]⟩ .f32 0x00000000#32) hrt hS)) (ix2 p q)
        + broadcastInDim ⟨2, ![M, N]⟩ ![0, 1] h45 (broadcastInDim ⟨2, ![1, N]⟩ ![1] h43 n2) (ix2 p q)
        - broadcastInDim ⟨2, ![M, N]⟩ ![] h49 (constant (F := Ideal) ⟨0, ![]⟩ .f32 0x40000000#32) (ix2 p q) * mm z pt (ix2 p q))
        (broadcastInDim ⟨2, ![M, N]⟩ ![] h52 (constant (F := Ideal) ⟨0, ![]⟩ .f32 0x00000000#32) (ix2 p q))
      = max (sq z p + n2 (ix1 q) - Ideal.ofBits .f32 0x40000000#32 * mm z pt (ix2 p q)) 0
  rw [broadcastInDim_apply ![] h52 _ (ix2 p q) ix0 (fun ax => ax.elim0),
    broadcastInDim_apply ![] h49 _ (ix2 p q) ix0 (fun ax => ax.elim0)]
  rw [broadcastInDim_apply ![0, 1] h45 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h43 n2 (ix2 (0 : Fin 1) q) (ix1 q) (fun ax => by
      match ax with
      | ⟨0, _⟩ =>
        show q.val = if N = 1 then 0 else q.val
        split
        · have := q.isLt; omega
        · rfl)]
  rw [broadcastInDim_apply ![0, 1] h44 _ (ix2 p q) (ix2 p (0 : Fin 1)) (fun ax => by
      match ax with
      | ⟨0, _⟩ =>
        show p.val = if M = 1 then 0 else p.val
        split
        · have := p.isLt; omega
        · rfl
      | ⟨1, _⟩ => rfl),
    broadcastInDim_apply ![0] h40 _ (ix2 p (0 : Fin 1)) (ix1 p) (fun ax => by
      match ax with
      | ⟨0, _⟩ =>
        show p.val = if M = 1 then 0 else p.val
        split
        · have := p.isLt; omega
        · rfl)]
  show max (Host.reduceAdd (mulf z z) (constant (F := Ideal) ⟨0, ![]⟩ .f32 0x00000000#32) hrt hS (ix1 p) + n2 (ix1 q)
        - Ideal.ofBits .f32 0x40000000#32 * mm z pt (ix2 p q)) (Ideal.ofBits .f32 0x00000000#32) = _
  rw [Ideal.ofBits_zero_f32]
  simp only [Host.reduceAdd, Ideal.hostReduceAdd_def]
  rw [Ideal.hostReduceAdd_single hrt hred]
  show max (Ideal.ofBits .f32 0x00000000#32 + ∑ k : Fin K, (mulf z z) (hred.lift (ix1 p) k) + n2 (ix1 q)
        - Ideal.ofBits .f32 0x40000000#32 * mm z pt (ix2 p q)) 0 = _
  rw [Ideal.ofBits_zero_f32, zero_add]
  refine congrArg (fun x => max (x + n2 (ix1 q) - Ideal.ofBits .f32 0x40000000#32 * mm z pt (ix2 p q)) 0) ?_
  exact Finset.sum_congr rfl fun k _ => by rw [hlift p k]; rfl

end Cert.Dense

end
-- ==== Proof.Mid.lean ====
/-
  The fused middle region of the kernel program: what its two output arrays hold after the region.

  The region's grid has 32 points; point t reads rows 512·t … 512·t + 511 of the activation array and the whole of
  ten small arrays (four weight matrices, four bias rows, the transposed prototypes and the row of their squared
  lengths), and writes rows 512·t … 512·t + 511 of two arrays. The body computes the latent code z of its block (two
  affine layers, the first rectified), from z the squared distances to the prototypes in product form, and from z
  the first two decoder layers (both rectified). Each is a function of the block's rows alone, so what point t
  writes back is the block of rows of the same function of the WHOLE activation array, and the 32 blocks tile each
  output array.
-/
import proofs.«125961_j2808908612213_2_alg».proof.Proof.Gen.KernelIdeal.Frame
import proofs.«125961_j2808908612213_2_alg».proof.Proof.LibSom

set_option maxRecDepth 16384

noncomputable section

namespace Cert.Dense

open Idealize.ShloMosaic Idealize.ShloMosaic.ValueIdx

/-- The latent code: an affine layer of a rectified affine layer. -/
def latent {M : ℕ} (H : Mat M 2000) (W2 : Mat 2000 500) (b2 : Mat 1 500) (W3 : Mat 500 256) (b3 : Mat 1 256) : Mat M 256 :=
  affine2 (relu (affine2 H W2 b2)) W3 b3

/-- The decoder's first two layers, both rectified. -/
def dechead {M : ℕ} (Z : Mat M 256) (W3 : Mat 256 500) (b3 : Mat 1 500) (W2 : Mat 500 2000) (b2 : Mat 1 2000) : Mat M 2000 :=
  relu (affine2 (relu (affine2 Z W3 b3)) W2 b2)

theorem latent_rows {M M' : ℕ} (A : Mat M' 2000) (blk : Mat M 2000) (W2 : Mat 2000 500) (b2 : Mat 1 500) (W3 : Mat 500 256) (b3 : Mat 1 256)
    (ρ : Fin M → Fin M') (h : ∀ p k, blk (ix2 p k) = A (ix2 (ρ p) k)) (p : Fin M) (q : Fin 256) :
    latent blk W2 b2 W3 b3 (ix2 p q) = latent A W2 b2 W3 b3 (ix2 (ρ p) q) :=
  affine2_rows _ _ W3 b3 ρ (relu_affine2_rows A blk W2 b2 ρ h) p q

theorem dechead_rows {M M' : ℕ} (A : Mat M' 256) (blk : Mat M 256) (W3 : Mat 256 500) (b3 : Mat 1 500) (W2 : Mat 500 2000) (b2 : Mat 1 2000)
    (ρ : Fin M → Fin M') (h : ∀ p k, blk (ix2 p k) = A (ix2 (ρ p) k)) (p : Fin M) (q : Fin 2000) :
    dechead blk W3 b3 W2 b2 (ix2 p q) = dechead A W3 b3 W2 b2 (ix2 (ρ p) q) :=
  relu_affine2_rows _ _ W2 b2 ρ (relu_affine2_rows A blk W3 b3 ρ h) p q

end Cert.Dense

namespace Cert.KernelIdeal.Mid

open Idealize.ShloMosaic Idealize.ShloMosaic.TcCoe Idealize.SL.Sem Idealize.ShloMosaic.ValueIdx
open Cert.KernelIdeal Cert.KernelIdeal.Gen Cert.Dense
open Idealize.ShloMosaic.Pipeline (Dat Cfg Window)

/-- The constant the literal 2.0 denotes. -/
abbrev two : EReal := Ideal.ofBits .f32 0x40000000#32

/-- The latent code of the block. -/
theorem pay2_eq (v0 : Vec Ideal S512x2000 .bf16) (v2 : Vec Ideal S2000x500 .bf16) (v5 : Vec Ideal S1x500 .f32)
    (v12 : Vec Ideal S500x256 .bf16) (v15 : Vec Ideal S1x256 .f32) :
    k2_pay2 v0 v2 v5 v12 v15 = latent v0 v2 v5 v12 v15 := by
  unfold k2_pay2
  dsimp only
  simp only [shapeCast_self, truncf_id]
  rw [show dot_S512x2000_S2000x500_S512x500_1_0_0_1_n_n = DotDims.plain 512 2000 500 from rfl,
    show dot_S512x500_S500x256_S512x256_1_0_0_1_n_n = DotDims.plain 512 500 256 from rfl]
  rw [addf_matmul_broadcastTo, maximumf_splat_zero, addf_matmul_broadcastTo]
  rfl

/-- The squared distances of the block's latent codes to the prototypes. -/
theorem pay3_eq (v0 : Vec Ideal S512x2000 .bf16) (v2 : Vec Ideal S2000x500 .bf16) (v5 : Vec Ideal S1x500 .f32)
    (v12 : Vec Ideal S500x256 .bf16) (v15 : Vec Ideal S1x256 .f32) (v22 : Vec Ideal S256x1024 .f32) (v25 : Vec Ideal S1x1024 .f32) :
    k2_pay3 v0 v2 v5 v12 v15 v22 v25 = som2 two (latent v0 v2 v5 v12 v15) v22 v25 := by
  unfold k2_pay3
  dsimp only
  simp only [shapeCast_self]
  rw [pay2_eq, show dot_S512x256_S256x1024_S512x1024_1_0_0_1_n_n = DotDims.plain 512 256 1024 from rfl]
  exact kernel_som (latent v0 v2 v5 v12 v15) v22 v25 (some .fp32) reduces_S512x256_S512 (.inl rfl) rfl
    (fun p k => funext fun a => Fin.ext (by match a with | ⟨0, _⟩ => rfl | ⟨1, _⟩ => rfl))
    shapeCasts_S512_S512x1 broadcasts_S512x1_S512x1024 broadcasts_S1x1024_S512x1024

/-- The decoder's first two layers of the block's latent codes. -/
theorem pay1_eq (z : FVec Ideal S512x256 .f32) (v37 : Vec Ideal S256x500 .bf16) (v40 : Vec Ideal S1x500 .f32)
    (v47 : Vec Ideal S500x2000 .bf16) (v50 : Vec Ideal S1x2000 .f32) :
    k2_pay1 z v37 v40 v47 v50 = dechead z v37 v40 v47 v50 := by
  unfold k2_pay1
  dsimp only
  simp only [shapeCast_self, truncf_id]
  rw [show dot_S512x256_S256x500_S512x500_1_0_0_1_n_n = DotDims.plain 512 256 500 from rfl,
    show dot_S512x500_S500x2000_S512x2000_1_0_0_1_n_n = DotDims.plain 512 500 2000 from rfl]
  rw [addf_matmul_broadcastTo, maximumf_splat_zero, addf_matmul_broadcastTo, maximumf_splat_zero]
  rfl

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the activation window and the two output windows move one block of rows per point;
    the ten small arrays stay. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = t.val
    ∧ win2_11.index t (1 : Fin 2) = 0
    ∧ win2_12.index t (0 : Fin 2) = t.val
    ∧ win2_12.index t (1 : Fin 2) = 0 :=
  (by decide +kernel : ∀ t : Fin grid2.N, _)

/-- Row p of point t's block is row 512·t + p of the array. -/
def row (t : Fin cfg2.N) (p : Fin 512) : Fin 16384 :=
  ⟨t.val * 512 + p.val, by have := t.isLt; have h : cfg2.N = 32 := N_2; omega⟩

/-- The activation block at point t, entry (p, k), is the array's entry (512·t + p, k). -/
theorem blk0_eq (c : Dev nD) (t : Fin cfg2.N) (p : Fin 512) (k : Fin 2000) :
    iblk2 V c 0 t (ix2 p k) = V c main_v5 (ix2 (row t p) k) := by
  obtain ⟨e0, e1, -⟩ := idx_facts t
  show V c main_v5 (((cfg2.win 0).blk t).view.emb (ix2 p k)) = V c main_v5 (ix2 (row t p) k)
  refine congrArg _ (funext fun a => Fin.ext ?_)
  match a with
  | ⟨0, _⟩ => show win2_0.index t (0 : Fin 2) * 512 + 1 * p.val = t.val * 512 + p.val; omega
  | ⟨1, _⟩ => show win2_0.index t (1 : Fin 2) * 2000 + 1 * k.val = k.val; omega

/-! The ten small arrays: each one's block at every point is the whole array. -/

theorem blk1_eq (c : Dev nD) (t : Fin cfg2.N) : iblk2 V c 1 t = V c main_v10 := by
  obtain ⟨-, -, e0, e1, -⟩ := idx_facts t
  funext y
  show V c main_v10 (((cfg2.win 1).blk t).view.emb y) = V c main_v10 y
  refine congrArg _ (funext fun a => Fin.ext ?_)
  match a with
  | ⟨0, _⟩ => show win2_1.index t (0 : Fin 2) * 2000 + 1 * (y 0).val = (y 0).val; omega
  | ⟨1, _⟩ => show win2_1.index t (1 : Fin 2) * 500 + 1 * (y 1).val = (y 1).val; omega

theorem blk2_eq (c : Dev nD) (t : Fin cfg2.N) : iblk2 V c 2 t = V c main_v11 := by
  obtain ⟨-, -, -, -, e0, e1, -⟩ := idx_facts t
  funext y
  show V c main_v11 (((cfg2.win 2).blk t).view.emb y) = V c main_v11 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 500 + 1 * (y 1).val = (y 1).val; omega

theorem blk3_eq (c : Dev nD) (t : Fin cfg2.N) : iblk2 V c 3 t = V c main_v12 := by
  obtain ⟨-, -, -, -, -, -, e0, e1, -⟩ := idx_facts t
  funext y
  show V c main_v12 (((cfg2.win 3).blk t).view.emb y) = V c main_v12 y
  refine congrArg _ (funext fun a => Fin.ext ?_)
  match a with
  | ⟨0, _⟩ => show win2_3.index t (0 : Fin 2) * 500 + 1 * (y 0).val = (y 0).val; omega
  | ⟨1, _⟩ => show win2_3.index t (1 : Fin 2) * 256 + 1 * (y 1).val = (y 1).val; omega

theorem blk4_eq (c : Dev nD) (t : Fin cfg2.N) : iblk2 V c 4 t = V c main_v13 := by
  obtain ⟨-, -, -, -, -, -, -, -, e0, e1, -⟩ := idx_facts t
  funext y
  show V c main_v13 (((cfg2.win 4).blk t).view.emb y) = V c main_v13 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 256 + 1 * (y 1).val = (y 1).val; omega

theorem blk5_eq (c : Dev nD) (t : Fin cfg2.N) : iblk2 V c 5 t = V c main_v14 := by
  obtain ⟨-, -, -, -, -, -, -, -, -, -, e0, e1, -⟩ := idx_facts t
  funext y
  show V c main_v14 (((cfg2.win 5).blk t).view.emb y) = V c main_v14 y
  refine congrArg _ (funext fun a => Fin.ext ?_)
  match a with
  | ⟨0, _⟩ => show win2_5.index t (0 : Fin 2) * 256 + 1 * (y 0).val = (y 0).val; omega
  | ⟨1, _⟩ => show win2_5.index t (1 : Fin 2) * 500 + 1 * (y 1).val = (y 1).val; omega

theorem blk6_eq (c : Dev nD) (t : Fin cfg2.N) : iblk2 V c 6 t = V c main_v15 := by
  obtain ⟨-, -, -, -, -, -, -, -, -, -, -, -, e0, e1, -⟩ := idx_facts t
  funext y
  show V c main_v15 (((cfg2.win 6).blk t).view.emb y) = V c main_v15 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 500 + 1 * (y 1).val = (y 1).val; omega

theorem blk7_eq (c : Dev nD) (t : Fin cfg2.N) : iblk2 V c 7 t = V c main_v16 := by
  obtain ⟨-, -, -, -, -, -, -, -, -, -, -, -, -, -, e0, e1, -⟩ := idx_facts t
  funext y
  show V c main_v16 (((cfg2.win 7).blk t).view.emb y) = V c main_v16 y
  refine congrArg _ (funext fun a => Fin.ext ?_)
  match a with
  | ⟨0, _⟩ => show win2_7.index t (0 : Fin 2) * 500 + 1 * (y 0).val = (y 0).val; omega
  | ⟨1, _⟩ => show win2_7.index t (1 : Fin 2) * 2000 + 1 * (y 1).val = (y 1).val; omega

theorem blk8_eq (c : Dev nD) (t : Fin cfg2.N) : iblk2 V c 8 t = V c main_v17 := by
  obtain ⟨-, -, -, -, -, -, -, -, -, -, -, -, -, -, -, -, e0, e1, -⟩ := idx_facts t
  funext y
  show V c main_v17 (((cfg2.win 8).blk t).view.emb y) = V c main_v17 y
  refine congrArg _ (funext fun a => Fin.ext ?_)
  match a with
  | ⟨0, _⟩ => show win2_8.index t (0 : Fin 2) * 1 + 1 * (y 0).val = (y 0).val; omega
  | ⟨1, _⟩ => show win2_8.index t (1 : Fin 2) * 2000 + 1 * (y 1).val = (y 1).val; omega

theorem blk9_eq (c : Dev nD) (t : Fin cfg2.N) : iblk2 V c 9 t = V c main_v6 := by
  obtain ⟨-, -, -, -, -, -, -, -, -, -, -, -, -, -, -, -, -, -, e0, e1, -⟩ := idx_facts t
  funext y
  show V c main_v6 (((cfg2.win 9).blk t).view.emb y) = V c main_v6 y
  refine congrArg _ (funext fun a => Fin.ext ?_)
  match a with
  | ⟨0, _⟩ => show win2_9.index t (0 : Fin 2) * 256 + 1 * (y 0).val = (y 0).val; omega
  | ⟨1, _⟩ => show win2_9.index t (1 : Fin 2) * 1024 + 1 * (y 1).val = (y 1).val; omega

theorem blk10_eq (c : Dev nD) (t : Fin cfg2.N) : iblk2 V c 10 t = V c main_v9 := by
  obtain ⟨-, -, -, -, -, -, -, -, -, -, -, -, -, -, -, -, -, -, -, -, e0, e1, -⟩ := idx_facts t
  funext y
  show V c main_v9 (((cfg2.win 10).blk t).view.emb y) = V c main_v9 y
  refine congrArg _ (funext fun a => Fin.ext ?_)
  match a with
  | ⟨0, _⟩ => show win2_10.index t (0 : Fin 2) * 1 + 1 * (y 0).val = (y 0).val; omega
  | ⟨1, _⟩ => show win2_10.index t (1 : Fin 2) * 1024 + 1 * (y 1).val = (y 1).val; omega

/-- The latent codes of the whole activation array as the region finds it. -/
abbrev Z (c : Dev nD) : Mat 16384 256 := latent (V c main_v5) (V c main_v10) (V c main_v11) (V c main_v12) (V c main_v13)

/-- The latent codes of point t's block are rows 512·t … of the whole array's. -/
theorem z_rows (c : Dev nD) (t : Fin cfg2.N) (p : Fin 512) (k : Fin 256) :
    latent (iblk2 V c 0 t) (V c main_v10) (V c main_v11) (V c main_v12) (V c main_v13) (ix2 p k) = Z V c (ix2 (row t p) k) :=
  latent_rows (V c main_v5) (iblk2 V c 0 t) _ _ _ _ (row t) (blk0_eq V c t) p k

/-! ## The decoder-head output (window 11) -/

/-- Entry (p, q) of output window 11's block at point t is entry (512·t + p, q) of its array. -/
theorem emb11_eq (t : Fin cfg2.N) (p : Fin 512) (q : Fin 2000) :
    ((cfg2.win 11).blk t).view.emb (ix2 p q) = ix2 (row t p) q := by
  obtain ⟨-, -, -, -, -, -, -, -, -, -, -, -, -, -, -, -, -, -, -, -, -, -, e0, e1, -⟩ := idx_facts t
  refine funext fun a => Fin.ext ?_
  match a with
  | ⟨0, _⟩ => show win2_11.index t (0 : Fin 2) * 512 + 1 * p.val = t.val * 512 + p.val; omega
  | ⟨1, _⟩ => show win2_11.index t (1 : Fin 2) * 2000 + 1 * q.val = q.val; omega

theorem mem_blk11 (t : Fin cfg2.N) (i : S16384x2000.Idx) :
    i ∈ ((cfg2.win 11).blk t).view.set ↔ ∀ a : Fin 2, win2_11.index t a * S512x2000.size a ≤ (i a).val ∧ (i a).val < win2_11.index t a * S512x2000.size a + S512x2000.size a := by
  show i ∈ ((View.whole main_v18_0).slice (win2_11.rect t)).set ↔ _
  rw [View.set_slice_whole, Rect.mem_set_unit]
  exact Iff.rfl

/-- Row r of the array lies in the block of point r / 512. -/
theorem cover11 (i : S16384x2000.Idx) : ∃ t : Fin cfg2.N, (cfg2.win 11).flush t = true ∧ i ∈ ((cfg2.win 11).blk t).view.set := by
  have hi0 : (i 0).val < 16384 := (i 0).isLt
  have hi1 : (i 1).val < 2000 := (i 1).isLt
  have hN : cfg2.N = 32 := N_2
  obtain ⟨t, ht⟩ : ∃ t : Fin cfg2.N, t.val = (i 0).val / 512 := ⟨⟨(i 0).val / 512, by omega⟩, rfl⟩
  obtain ⟨-, -, -, -, -, -, -, -, -, -, -, -, -, -, -, -, -, -, -, -, -, -, e0, e1, -⟩ := idx_facts t
  refine ⟨t, flush2_11 t, ?_⟩
  rw [mem_blk11]
  intro a
  match a with
  | ⟨0, _⟩ => show win2_11.index t (0 : Fin 2) * 512 ≤ (i 0).val ∧ (i 0).val < win2_11.index t (0 : Fin 2) * 512 + 512; omega
  | ⟨1, _⟩ => show win2_11.index t (1 : Fin 2) * 2000 ≤ (i 1).val ∧ (i 1).val < win2_11.index t (1 : Fin 2) * 2000 + 2000; omega

/-- What point t writes back to the decoder-head array is its block of rows of the decoder head of the whole latent array. -/
theorem flushed11_eq (c : Dev nD) (t : Fin cfg2.N) :
    (dat2 V c).flushed 11 t = ((cfg2.win 11).blk t).view.read (Elt Ideal)
      (dechead (Z V c) (V c main_v14) (V c main_v15) (V c main_v16) (V c main_v17)) := by
  show (cfg2.win 11).cut (grid2.coords t) ((dat2 V c).after 11 t) = _
  rw [after2_11]
  unfold out2_11
  rw [View.canon_unit_zero hz]
  simp only [View.ld_unit_zero (S := S512x2000) hz, View.ld_unit_zero (S := S2000x500) hz, View.ld_unit_zero (S := S1x500) hz,
    View.ld_unit_zero (S := S500x256) hz, View.ld_unit_zero (S := S1x256) hz, View.ld_unit_zero (S := S256x500) hz,
    View.ld_unit_zero (S := S500x2000) hz, View.ld_unit_zero (S := S1x2000) hz]
  rw [pay2_eq, pay1_eq, blk1_eq, blk2_eq, blk3_eq, blk4_eq, blk5_eq, blk6_eq, blk7_eq, blk8_eq]
  funext j
  obtain ⟨p, q, rfl⟩ : ∃ (p : Fin 512) (q : Fin 2000), j = ix2 p q := ⟨j 0, j 1, eq_ix2 j⟩
  show dechead (latent (iblk2 V c 0 t) (V c main_v10) (V c main_v11) (V c main_v12) (V c main_v13))
        (V c main_v14) (V c main_v15) (V c main_v16) (V c main_v17) (ix2 p q)
    = dechead (Z V c) (V c main_v14) (V c main_v15) (V c main_v16) (V c main_v17) (((cfg2.win 11).blk t).view.emb (ix2 p q))
  rw [emb11_eq]
  exact dechead_rows (Z V c) _ _ _ _ _ (row t) (z_rows V c t) p q

/-- The decoder-head array after the region. -/
theorem final11 (c : Dev nD) :
    (dat2 V c).arrAt 11 cfg2.N = dechead (Z V c) (V c main_v14) (V c main_v15) (V c main_v16) (V c main_v17) :=
  (dat2 V c).arrAt_eq_of_cover 11 _ (fun t _ => flushed11_eq V c t) cover11

/-! ## The distance output (window 12) -/

/-- Entry (p, q) of output window 12's block at point t is entry (512·t + p, q) of its array. -/
theorem emb12_eq (t : Fin cfg2.N) (p : Fin 512) (q : Fin 1024) :
    ((cfg2.win 12).blk t).view.emb (ix2 p q) = ix2 (row t p) q := by
  obtain ⟨-, -, -, -, -, -, -, -, -, -, -, -, -, -, -, -, -, -, -, -, -, -, -, -, e0, e1⟩ := idx_facts t
  refine funext fun a => Fin.ext ?_
  match a with
  | ⟨0, _⟩ => show win2_12.index t (0 : Fin 2) * 512 + 1 * p.val = t.val * 512 + p.val; omega
  | ⟨1, _⟩ => show win2_12.index t (1 : Fin 2) * 1024 + 1 * q.val = q.val; omega

theorem mem_blk12 (t : Fin cfg2.N) (i : S16384x1024.Idx) :
    i ∈ ((cfg2.win 12).blk t).view.set ↔ ∀ a : Fin 2, win2_12.index t a * S512x1024.size a ≤ (i a).val ∧ (i a).val < win2_12.index t a * S512x1024.size a + S512x1024.size a := by
  show i ∈ ((View.whole main_v18_1).slice (win2_12.rect t)).set ↔ _
  rw [View.set_slice_whole, Rect.mem_set_unit]
  exact Iff.rfl

/-- Row r of the array lies in the block of point r / 512. -/
theorem cover12 (i : S16384x1024.Idx) : ∃ t : Fin cfg2.N, (cfg2.win 12).flush t = true ∧ i ∈ ((cfg2.win 12).blk t).view.set := by
  have hi0 : (i 0).val < 16384 := (i 0).isLt
  have hi1 : (i 1).val < 1024 := (i 1).isLt
  have hN : cfg2.N = 32 := N_2
  obtain ⟨t, ht⟩ : ∃ t : Fin cfg2.N, t.val = (i 0).val / 512 := ⟨⟨(i 0).val / 512, by omega⟩, rfl⟩
  obtain ⟨-, -, -, -, -, -, -, -, -, -, -, -, -, -, -, -, -, -, -, -, -, -, -, -, e0, e1⟩ := idx_facts t
  refine ⟨t, flush2_12 t, ?_⟩
  rw [mem_blk12]
  intro a
  match a with
  | ⟨0, _⟩ => show win2_12.index t (0 : Fin 2) * 512 ≤ (i 0).val ∧ (i 0).val < win2_12.index t (0 : Fin 2) * 512 + 512; omega
  | ⟨1, _⟩ => show win2_12.index t (1 : Fin 2) * 1024 ≤ (i 1).val ∧ (i 1).val < win2_12.index t (1 : Fin 2) * 1024 + 1024; omega

/-- What point t writes back to the distance array is its block of rows of the distances of the whole latent array. -/
theorem flushed12_eq (c : Dev nD) (t : Fin cfg2.N) :
    (dat2 V c).flushed 12 t = ((cfg2.win 12).blk t).view.read (Elt Ideal) (som2 two (Z V c) (V c main_v6) (V c main_v9)) := by
  show (cfg2.win 12).cut (grid2.coords t) ((dat2 V c).after 12 t) = _
  rw [after2_12]
  unfold out2_12
  rw [View.canon_unit_zero hz]
  simp only [View.ld_unit_zero (S := S512x2000) hz, View.ld_unit_zero (S := S2000x500) hz, View.ld_unit_zero (S := S1x500) hz,
    View.ld_unit_zero (S := S500x256) hz, View.ld_unit_zero (S := S1x256) hz, View.ld_unit_zero (S := S256x1024) hz,
    View.ld_unit_zero (S := S1x1024) hz]
  rw [pay3_eq, blk1_eq, blk2_eq, blk3_eq, blk4_eq, blk9_eq, blk10_eq]
  funext j
  obtain ⟨p, q, rfl⟩ : ∃ (p : Fin 512) (q : Fin 1024), j = ix2 p q := ⟨j 0, j 1, eq_ix2 j⟩
  show som2 two (latent (iblk2 V c 0 t) (V c main_v10) (V c main_v11) (V c main_v12) (V c main_v13)) (V c main_v6) (V c main_v9) (ix2 p q)
    = som2 two (Z V c) (V c main_v6) (V c main_v9) (((cfg2.win 12).blk t).view.emb (ix2 p q))
  rw [emb12_eq]
  exact som2_rows two (Z V c) _ _ _ (row t) (z_rows V c t) p q

/-- The distance array after the region. -/
theorem final12 (c : Dev nD) :
    (dat2 V c).arrAt 12 cfg2.N = som2 two (Z V c) (V c main_v6) (V c main_v9) :=
  (dat2 V c).arrAt_eq_of_cover 12 _ (fun t _ => flushed12_eq V c t) cover12

end Cert.KernelIdeal.Mid

end
-- ==== Proof.Layer3.lean ====
/-
  Dense layer 3 of the kernel program: what its output array holds after the region.

  The region's grid has 16 points; point t reads rows 1024·t … 1024·t + 1023 of the activation array, the whole
  weight matrix and the whole bias row, and writes rows 1024·t … 1024·t + 1023 of the output array. The body's
  stored value is the rectified affine layer of its three loaded blocks (format changes are the identity on the extended
  reals), so what point t writes back is the block of rows of the rectified affine layer of the WHOLE arrays, and the
  sixteen blocks tile the output array.
-/
import proofs.«125961_j2808908612213_2_alg».proof.Proof.Gen.KernelIdeal.Frame
import proofs.«125961_j2808908612213_2_alg».proof.Proof.LibDense

set_option maxRecDepth 16384

noncomputable section

namespace Cert.KernelIdeal.Layer3

open Idealize.ShloMosaic Idealize.ShloMosaic.TcCoe Idealize.SL.Sem Idealize.ShloMosaic.ValueIdx
open Cert.KernelIdeal Cert.KernelIdeal.Gen Cert.Dense
open Idealize.ShloMosaic.Pipeline (Dat Cfg Window)

/-- The body's stored value: the product of the activation block with the weights, plus the bias row, rectified. -/
theorem pay_eq (x0 : Vec Ideal S1024x2000 .bf16) (x1 : Vec Ideal S2000x2000 .bf16) (x2 : Vec Ideal S1x2000 .f32) :
    k3_pay1 x0 x1 x2 = relu (affine2 x0 x1 x2) := by
  unfold k3_pay1
  dsimp only
  simp only [shapeCast_self, truncf_id]
  rw [show dot_S1024x2000_S2000x2000_S1024x2000_1_0_0_1_n_n = DotDims.plain 1024 2000 2000 from rfl]
  exact (maximumf_splat_zero _).trans (congrArg relu (addf_matmul_broadcastTo none x0 x1 x2 _))

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the activation and output windows move one block of rows per point; the weights and
    the bias stay. -/
theorem idx_facts : ∀ t : Fin cfg3.N, win3_0.index t (0 : Fin 2) = t.val
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of point t's block is row 1024·t + p of the array. -/
def row (t : Fin cfg3.N) (p : Fin 1024) : Fin 16384 :=
  ⟨t.val * 1024 + p.val, by have := t.isLt; have h : cfg3.N = 16 := N_3; omega⟩

/-- The activation block at point t, entry (p, k), is the array's entry (1024·t + p, k). -/
theorem blk0_eq (c : Dev nD) (t : Fin cfg3.N) (p : Fin 1024) (k : Fin 2000) :
    iblk3 V c 0 t (ix2 p k) = V c main_v18_0 (ix2 (row t p) k) := by
  obtain ⟨e0, e1, -⟩ := idx_facts t
  show V c main_v18_0 (((cfg3.win 0).blk t).view.emb (ix2 p k)) = V c main_v18_0 (ix2 (row t p) k)
  refine congrArg _ (funext fun a => Fin.ext ?_)
  match a with
  | ⟨0, _⟩ => show win3_0.index t (0 : Fin 2) * 1024 + 1 * p.val = t.val * 1024 + p.val; omega
  | ⟨1, _⟩ => show win3_0.index t (1 : Fin 2) * 2000 + 1 * k.val = k.val; omega

/-- The weight block at every point is the whole weight matrix. -/
theorem blk1_eq (c : Dev nD) (t : Fin cfg3.N) : iblk3 V c 1 t = V c main_v19 := by
  obtain ⟨-, -, e0, e1, -⟩ := idx_facts t
  funext y
  show V c main_v19 (((cfg3.win 1).blk t).view.emb y) = V c main_v19 y
  refine congrArg _ (funext fun a => Fin.ext ?_)
  match a with
  | ⟨0, _⟩ => show win3_1.index t (0 : Fin 2) * 2000 + 1 * (y 0).val = (y 0).val; omega
  | ⟨1, _⟩ => show win3_1.index t (1 : Fin 2) * 2000 + 1 * (y 1).val = (y 1).val; omega

/-- The bias block at every point is the whole bias row. -/
theorem blk2_eq (c : Dev nD) (t : Fin cfg3.N) : iblk3 V c 2 t = V c main_v20 := by
  obtain ⟨-, -, -, -, e0, e1, -⟩ := idx_facts t
  funext y
  show V c main_v20 (((cfg3.win 2).blk t).view.emb y) = V c main_v20 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 2000 + 1 * (y 1).val = (y 1).val; omega

/-- Entry (p, q) of the output block of point t is entry (1024·t + p, q) of the output array. -/
theorem emb3_eq (t : Fin cfg3.N) (p : Fin 1024) (q : Fin 2000) :
    ((cfg3.win 3).blk t).view.emb (ix2 p q) = ix2 (row t p) q := by
  obtain ⟨-, -, -, -, -, -, e0, e1⟩ := idx_facts t
  refine funext fun a => Fin.ext ?_
  match a with
  | ⟨0, _⟩ => show win3_3.index t (0 : Fin 2) * 1024 + 1 * p.val = t.val * 1024 + p.val; omega
  | ⟨1, _⟩ => show win3_3.index t (1 : Fin 2) * 2000 + 1 * q.val = q.val; omega

/-- What point t writes back is its block of rows of the rectified affine layer of the whole arrays. -/
theorem flushed_eq (c : Dev nD) (t : Fin cfg3.N) :
    (dat3 V c).flushed 3 t = ((cfg3.win 3).blk t).view.read (Elt Ideal) (relu (affine2 (V c main_v18_0) (V c main_v19) (V c main_v20))) := by
  show (cfg3.win 3).cut (grid3.coords t) ((dat3 V c).after 3 t) = _
  rw [after3_3]
  unfold out3_3
  rw [View.canon_unit_zero hz]
  simp only [View.ld_unit_zero (S := S1024x2000) hz, View.ld_unit_zero (S := S2000x2000) hz, View.ld_unit_zero (S := S1x2000) hz]
  rw [pay_eq, blk1_eq, blk2_eq]
  funext j
  obtain ⟨p, q, rfl⟩ : ∃ (p : Fin 1024) (q : Fin 2000), j = ix2 p q := ⟨j 0, j 1, eq_ix2 j⟩
  show relu (affine2 (iblk3 V c 0 t) (V c main_v19) (V c main_v20)) (ix2 p q)
    = (relu (affine2 (V c main_v18_0) (V c main_v19) (V c main_v20))) (((cfg3.win 3).blk t).view.emb (ix2 p q))
  rw [emb3_eq]
  exact relu_affine2_rows (V c main_v18_0) (iblk3 V c 0 t) (V c main_v19) (V c main_v20) (row t) (blk0_eq V c t) p q

/-- An index of the array is in point t's block iff each coordinate is in the block's range on its axis. -/
theorem mem_blk (t : Fin cfg3.N) (i : S16384x2000.Idx) :
    i ∈ ((cfg3.win 3).blk t).view.set ↔ ∀ a : Fin 2, win3_3.index t a * S1024x2000.size a ≤ (i a).val ∧ (i a).val < win3_3.index t a * S1024x2000.size a + S1024x2000.size a := by
  show i ∈ ((View.whole main_v21).slice (win3_3.rect t)).set ↔ _
  rw [View.set_slice_whole, Rect.mem_set_unit]
  exact Iff.rfl

/-- Row r of the output array lies in the block of point r / 1024. -/
theorem cover (i : S16384x2000.Idx) : ∃ t : Fin cfg3.N, (cfg3.win 3).flush t = true ∧ i ∈ ((cfg3.win 3).blk t).view.set := by
  have hi0 : (i 0).val < 16384 := (i 0).isLt
  have hi1 : (i 1).val < 2000 := (i 1).isLt
  have hN : cfg3.N = 16 := N_3
  obtain ⟨t, ht⟩ : ∃ t : Fin cfg3.N, t.val = (i 0).val / 1024 := ⟨⟨(i 0).val / 1024, by omega⟩, rfl⟩
  obtain ⟨-, -, -, -, -, -, e0, e1⟩ := idx_facts t
  refine ⟨t, flush3_3 t, ?_⟩
  rw [mem_blk]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 2000 ≤ (i 1).val ∧ (i 1).val < win3_3.index t (1 : Fin 2) * 2000 + 2000; omega

/-- The output array after the region: the rectified affine layer of the arrays the region finds. -/
theorem final (c : Dev nD) :
    (dat3 V c).arrAt 3 cfg3.N = relu (affine2 (V c main_v18_0) (V c main_v19) (V c main_v20)) :=
  (dat3 V c).arrAt_eq_of_cover 3 _ (fun t _ => flushed_eq V c t) cover

end Cert.KernelIdeal.Layer3

end
-- ==== Proof.Layer4.lean ====
/-
  Dense layer 4 of the kernel program: what its output array holds after the region.

  The region's grid has 16 points; point t reads rows 1024·t … 1024·t + 1023 of the activation array, the whole
  weight matrix and the whole bias row, and writes rows 1024·t … 1024·t + 1023 of the output array. The body's
  stored value is the affine layer of its three loaded blocks (format changes are the identity on the extended
  reals), so what point t writes back is the block of rows of the affine layer of the WHOLE arrays, and the
  sixteen blocks tile the output array.
-/
import proofs.«125961_j2808908612213_2_alg».proof.Proof.Gen.KernelIdeal.Frame
import proofs.«125961_j2808908612213_2_alg».proof.Proof.LibDense

set_option maxRecDepth 16384

noncomputable section

namespace Cert.KernelIdeal.Layer4

open Idealize.ShloMosaic Idealize.ShloMosaic.TcCoe Idealize.SL.Sem Idealize.ShloMosaic.ValueIdx
open Cert.KernelIdeal Cert.KernelIdeal.Gen Cert.Dense
open Idealize.ShloMosaic.Pipeline (Dat Cfg Window)

/-- The body's stored value: the product of the activation block with the weights, plus the bias row. -/
theorem pay_eq (x0 : Vec Ideal S1024x2000 .bf16) (x1 : Vec Ideal S2000x784 .bf16) (x2 : Vec Ideal S1x784 .f32) :
    k4_pay1 x0 x1 x2 = affine2 x0 x1 x2 := by
  unfold k4_pay1
  dsimp only
  simp only [shapeCast_self, truncf_id]
  rw [show dot_S1024x2000_S2000x784_S1024x784_1_0_0_1_n_n = DotDims.plain 1024 2000 784 from rfl]
  exact addf_matmul_broadcastTo none x0 x1 x2 _

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the activation and output windows move one block of rows per point; the weights and
    the bias stay. -/
theorem idx_facts : ∀ t : Fin cfg4.N, win4_0.index t (0 : Fin 2) = t.val
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of point t's block is row 1024·t + p of the array. -/
def row (t : Fin cfg4.N) (p : Fin 1024) : Fin 16384 :=
  ⟨t.val * 1024 + p.val, by have := t.isLt; have h : cfg4.N = 16 := N_4; omega⟩

/-- The activation block at point t, entry (p, k), is the array's entry (1024·t + p, k). -/
theorem blk0_eq (c : Dev nD) (t : Fin cfg4.N) (p : Fin 1024) (k : Fin 2000) :
    iblk4 V c 0 t (ix2 p k) = V c main_v21 (ix2 (row t p) k) := by
  obtain ⟨e0, e1, -⟩ := idx_facts t
  show V c main_v21 (((cfg4.win 0).blk t).view.emb (ix2 p k)) = V c main_v21 (ix2 (row t p) k)
  refine congrArg _ (funext fun a => Fin.ext ?_)
  match a with
  | ⟨0, _⟩ => show win4_0.index t (0 : Fin 2) * 1024 + 1 * p.val = t.val * 1024 + p.val; omega
  | ⟨1, _⟩ => show win4_0.index t (1 : Fin 2) * 2000 + 1 * k.val = k.val; omega

/-- The weight block at every point is the whole weight matrix. -/
theorem blk1_eq (c : Dev nD) (t : Fin cfg4.N) : iblk4 V c 1 t = V c main_v22 := by
  obtain ⟨-, -, e0, e1, -⟩ := idx_facts t
  funext y
  show V c main_v22 (((cfg4.win 1).blk t).view.emb y) = V c main_v22 y
  refine congrArg _ (funext fun a => Fin.ext ?_)
  match a with
  | ⟨0, _⟩ => show win4_1.index t (0 : Fin 2) * 2000 + 1 * (y 0).val = (y 0).val; omega
  | ⟨1, _⟩ => show win4_1.index t (1 : Fin 2) * 784 + 1 * (y 1).val = (y 1).val; omega

/-- The bias block at every point is the whole bias row. -/
theorem blk2_eq (c : Dev nD) (t : Fin cfg4.N) : iblk4 V c 2 t = V c main_v23 := by
  obtain ⟨-, -, -, -, e0, e1, -⟩ := idx_facts t
  funext y
  show V c main_v23 (((cfg4.win 2).blk t).view.emb y) = V c main_v23 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 784 + 1 * (y 1).val = (y 1).val; omega

/-- Entry (p, q) of the output block of point t is entry (1024·t + p, q) of the output array. -/
theorem emb3_eq (t : Fin cfg4.N) (p : Fin 1024) (q : Fin 784) :
    ((cfg4.win 3).blk t).view.emb (ix2 p q) = ix2 (row t p) q := by
  obtain ⟨-, -, -, -, -, -, e0, e1⟩ := idx_facts t
  refine funext fun a => Fin.ext ?_
  match a with
  | ⟨0, _⟩ => show win4_3.index t (0 : Fin 2) * 1024 + 1 * p.val = t.val * 1024 + p.val; omega
  | ⟨1, _⟩ => show win4_3.index t (1 : Fin 2) * 784 + 1 * q.val = q.val; omega

/-- What point t writes back is its block of rows of the affine layer of the whole arrays. -/
theorem flushed_eq (c : Dev nD) (t : Fin cfg4.N) :
    (dat4 V c).flushed 3 t = ((cfg4.win 3).blk t).view.read (Elt Ideal) (affine2 (V c main_v21) (V c main_v22) (V c main_v23)) := by
  show (cfg4.win 3).cut (grid4.coords t) ((dat4 V c).after 3 t) = _
  rw [after4_3]
  unfold out4_3
  rw [View.canon_unit_zero hz]
  simp only [View.ld_unit_zero (S := S1024x2000) hz, View.ld_unit_zero (S := S2000x784) hz, View.ld_unit_zero (S := S1x784) hz]
  rw [pay_eq, blk1_eq, blk2_eq]
  funext j
  obtain ⟨p, q, rfl⟩ : ∃ (p : Fin 1024) (q : Fin 784), j = ix2 p q := ⟨j 0, j 1, eq_ix2 j⟩
  show affine2 (iblk4 V c 0 t) (V c main_v22) (V c main_v23) (ix2 p q)
    = (affine2 (V c main_v21) (V c main_v22) (V c main_v23)) (((cfg4.win 3).blk t).view.emb (ix2 p q))
  rw [emb3_eq]
  exact affine2_rows (V c main_v21) (iblk4 V c 0 t) (V c main_v22) (V c main_v23) (row t) (blk0_eq V c t) p q

/-- An index of the array is in point t's block iff each coordinate is in the block's range on its axis. -/
theorem mem_blk (t : Fin cfg4.N) (i : S16384x784.Idx) :
    i ∈ ((cfg4.win 3).blk t).view.set ↔ ∀ a : Fin 2, win4_3.index t a * S1024x784.size a ≤ (i a).val ∧ (i a).val < win4_3.index t a * S1024x784.size a + S1024x784.size a := by
  show i ∈ ((View.whole main_v24).slice (win4_3.rect t)).set ↔ _
  rw [View.set_slice_whole, Rect.mem_set_unit]
  exact Iff.rfl

/-- Row r of the output array lies in the block of point r / 1024. -/
theorem cover (i : S16384x784.Idx) : ∃ t : Fin cfg4.N, (cfg4.win 3).flush t = true ∧ i ∈ ((cfg4.win 3).blk t).view.set := by
  have hi0 : (i 0).val < 16384 := (i 0).isLt
  have hi1 : (i 1).val < 784 := (i 1).isLt
  have hN : cfg4.N = 16 := N_4
  obtain ⟨t, ht⟩ : ∃ t : Fin cfg4.N, t.val = (i 0).val / 1024 := ⟨⟨(i 0).val / 1024, by omega⟩, rfl⟩
  obtain ⟨-, -, -, -, -, -, e0, e1⟩ := idx_facts t
  refine ⟨t, flush4_3 t, ?_⟩
  rw [mem_blk]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 784 ≤ (i 1).val ∧ (i 1).val < win4_3.index t (1 : Fin 2) * 784 + 784; omega

/-- The output array after the region: the affine layer of the arrays the region finds. -/
theorem final (c : Dev nD) :
    (dat4 V c).arrAt 3 cfg4.N = affine2 (V c main_v21) (V c main_v22) (V c main_v23) :=
  (dat4 V c).arrAt_eq_of_cover 3 _ (fun t _ => flushed_eq V c t) cover

end Cert.KernelIdeal.Layer4

end
-- ==== Proof.Spec.lean ====
/-
  The whole network on the extended reals: the encoder, the decoder, and the distances to the prototypes.

  The encoder is four affine layers, the first three rectified; the decoder is four affine layers, the first three
  rectified; the distance array holds, for every latent row and every prototype, the squared distance in product form
  cut at zero. Both programs compute these three functions of their argument arrays.
-/
import proofs.«125961_j2808908612213_2_alg».proof.Proof.LibSom

noncomputable section

namespace Cert.Dense

open Idealize.ShloMosaic Idealize.ShloMosaic.ValueIdx

variable {B : ℕ}

/-- The latent code of every row. -/
def encode (x : Mat B 784) (eW0 : Mat 784 2000) (eb0 : Row 2000) (eW1 : Mat 2000 2000) (eb1 : Row 2000)
    (eW2 : Mat 2000 500) (eb2 : Row 500) (eW3 : Mat 500 256) (eb3 : Row 256) : Mat B 256 :=
  affine (relu (affine (relu (affine (relu (affine x eW0 eb0)) eW1 eb1)) eW2 eb2)) eW3 eb3

/-- The reconstruction of every latent row. -/
def decode (z : Mat B 256) (dW3 : Mat 256 500) (db3 : Row 500) (dW2 : Mat 500 2000) (db2 : Row 2000)
    (dW1 : Mat 2000 2000) (db1 : Row 2000) (dW0 : Mat 2000 784) (db0 : Row 784) : Mat B 784 :=
  affine (relu (affine (relu (affine (relu (affine z dW3 db3)) dW2 db2)) dW1 db1)) dW0 db0

/-- A bias row reshaped to a one-row matrix gives the same affine layer. -/
theorem affine2_shapeCast {M K N : ℕ} (A : Mat M K) (W : Mat K N) (b : Row N) (h : (⟨1, ![N]⟩ : Shape).ShapeCasts ⟨2, ![1, N]⟩) :
    affine2 A W (shapeCast ⟨2, ![1, N]⟩ b h) = affine A W b :=
  affine_eq_affine2 A W b _ fun q => shapeCast_a_1a_apply b h 0 q

/-- Squared lengths reshaped to a one-row matrix give the same distances. -/
theorem som2_shapeCast {M K N : ℕ} (two : EReal) (Z : Mat M K) (PT : Mat K N) (n2 : Row N) (h : (⟨1, ![N]⟩ : Shape).ShapeCasts ⟨2, ![1, N]⟩) :
    som2 two Z PT (shapeCast ⟨2, ![1, N]⟩ n2 h) = som two Z PT n2 :=
  som2_eq_som two Z PT n2 _ fun q => shapeCast_a_1a_apply n2 h 0 q

/-! ## The two results as functions of the arguments -/

/-- The decoded array of the arguments. -/
def decodedOf (x : Mat B 784) (eW0 : Mat 784 2000) (eb0 : Row 2000) (eW1 : Mat 2000 2000) (eb1 : Row 2000) (eW2 : Mat 2000 500) (eb2 : Row 500) (eW3 : Mat 500 256) (eb3 : Row 256) (dW3 : Mat 256 500) (db3 : Row 500) (dW2 : Mat 500 2000) (db2 : Row 2000) (dW1 : Mat 2000 2000) (db1 : Row 2000) (dW0 : Mat 2000 784) (db0 : Row 784) : Mat B 784 :=
  decode (encode x eW0 eb0 eW1 eb1 eW2 eb2 eW3 eb3) dW3 db3 dW2 db2 dW1 db1 dW0 db0

/-- The prototypes transposed. -/
def protoTOf (P : Mat 1024 256) : Mat 256 1024 :=
  transpose ⟨2, ![256, 1024]⟩ [1, 0] P (by decide)

/-- The prototypes' squared lengths, as the host sums them (from the zero word). -/
def proto2Of (P : Mat 1024 256) : Row 1024 :=
  Host.reduceAdd (F := Ideal) (φ := .f32) (axes := [1]) (mulf (F := Ideal) (φ := .f32) P P) (constant (F := Ideal) ⟨0, ![]⟩ .f32 0x00000000#32) (by decide) (by decide)

/-- The distance array of the arguments. -/
def distancesOf (x : Mat B 784) (eW0 : Mat 784 2000) (eb0 : Row 2000) (eW1 : Mat 2000 2000) (eb1 : Row 2000) (eW2 : Mat 2000 500) (eb2 : Row 500) (eW3 : Mat 500 256) (eb3 : Row 256) (P : Mat 1024 256) : Mat B 1024 :=
  som (Ideal.ofBits .f32 0x40000000#32) (encode x eW0 eb0 eW1 eb1 eW2 eb2 eW3 eb3) (protoTOf P) (proto2Of P)

theorem decodedOf_congr {x x' : Mat B 784} {eW0 eW0' : Mat 784 2000} {eb0 eb0' : Row 2000} {eW1 eW1' : Mat 2000 2000} {eb1 eb1' : Row 2000} {eW2 eW2' : Mat 2000 500} {eb2 eb2' : Row 500} {eW3 eW3' : Mat 500 256} {eb3 eb3' : Row 256} {dW3 dW3' : Mat 256 500} {db3 db3' : Row 500} {dW2 dW2' : Mat 500 2000} {db2 db2' : Row 2000} {dW1 dW1' : Mat 2000 2000} {db1 db1' : Row 2000} {dW0 dW0' : Mat 2000 784} {db0 db0' : Row 784} (h0 : x' = x) (h1 : eW0' = eW0) (h2 : eb0' = eb0) (h3 : eW1' = eW1) (h4 : eb1' = eb1) (h5 : eW2' = eW2) (h6 : eb2' = eb2) (h7 : eW3' = eW3) (h8 : eb3' = eb3) (h9 : dW3' = dW3) (h10 : db3' = db3) (h11 : dW2' = dW2) (h12 : db2' = db2) (h13 : dW1' = dW1) (h14 : db1' = db1) (h15 : dW0' = dW0) (h16 : db0' = db0) :
    decodedOf (B := B) x' eW0' eb0' eW1' eb1' eW2' eb2' eW3' eb3' dW3' db3' dW2' db2' dW1' db1' dW0' db0' = decodedOf x eW0 eb0 eW1 eb1 eW2 eb2 eW3 eb3 dW3 db3 dW2 db2 dW1 db1 dW0 db0 := by
  subst_vars; rfl

theorem distancesOf_congr {x x' : Mat B 784} {eW0 eW0' : Mat 784 2000} {eb0 eb0' : Row 2000} {eW1 eW1' : Mat 2000 2000} {eb1 eb1' : Row 2000} {eW2 eW2' : Mat 2000 500} {eb2 eb2' : Row 500} {eW3 eW3' : Mat 500 256} {eb3 eb3' : Row 256} {P P' : Mat 1024 256} (h0 : x' = x) (h1 : eW0' = eW0) (h2 : eb0' = eb0) (h3 : eW1' = eW1) (h4 : eb1' = eb1) (h5 : eW2' = eW2) (h6 : eb2' = eb2) (h7 : eW3' = eW3) (h8 : eb3' = eb3) (hP : P' = P) :
    distancesOf (B := B) x' eW0' eb0' eW1' eb1' eW2' eb2' eW3' eb3' P' = distancesOf x eW0 eb0 eW1 eb1 eW2 eb2 eW3 eb3 P := by
  subst_vars; rfl

end Cert.Dense

end
-- ==== Proof.Glue.lean ====
/-
  The kernel program's two results as the network's functions of its arguments.

  The program is five regions among stretches of host operations. Each host stretch converts a weight matrix's format
  (the identity on the extended reals) and reshapes a bias vector to a one-row matrix; the third also transposes the
  prototypes and sums their squares. Region by region, what a region finds in its windows' arrays is what the host
  stretch before it and the region before that left there, so the five regions' output arrays are, in turn, the first
  two encoder layers, the latent code's distances and the decoder's first two layers, and the decoder's last two layers
  of the argument arrays. No host operation and no region writes an argument array, so every stretch reads the launch
  contents.
-/
import proofs.«125961_j2808908612213_2_alg».proof.Proof.Layer0
import proofs.«125961_j2808908612213_2_alg».proof.Proof.Layer1
import proofs.«125961_j2808908612213_2_alg».proof.Proof.Mid
import proofs.«125961_j2808908612213_2_alg».proof.Proof.Layer3
import proofs.«125961_j2808908612213_2_alg».proof.Proof.Layer4
import proofs.«125961_j2808908612213_2_alg».proof.Proof.Spec

set_option maxRecDepth 16384

noncomputable section

namespace Cert.KernelIdeal.Whole

open Idealize.ShloMosaic Idealize.ShloMosaic.TcCoe Idealize.SL.Sem Idealize.ShloMosaic.ValueIdx Idealize.ShloMosaic.StableHlo
open Cert.KernelIdeal Cert.KernelIdeal.Gen Cert.Dense

variable (m : (ℓ : Loc nD τ sig) → Buf (Elt Ideal) ℓ) (ρ : Dev nD → PrngReg) (c : Dev nD)

/-! ## The argument arrays at every boundary where a host stretch reads them -/

theorem W2_arg3 : W2 m ρ c (Proc.devRef .tc main_arg3) = m ((c : Thread nD τ).loc main_arg3) :=
  ((W2_of_ne m ρ c main_arg3 (by decide)).trans ((show StableHlo.after hostOps0 (W0 m ρ c) (Proc.devRef .tc main_arg3) = W0 m ρ c (Proc.devRef .tc main_arg3) from by after_results).trans rfl))

theorem W2_arg4 : W2 m ρ c (Proc.devRef .tc main_arg4) = m ((c : Thread nD τ).loc main_arg4) :=
  ((W2_of_ne m ρ c main_arg4 (by decide)).trans ((show StableHlo.after hostOps0 (W0 m ρ c) (Proc.devRef .tc main_arg4) = W0 m ρ c (Proc.devRef .tc main_arg4) from by after_results).trans rfl))

theorem W4_arg17 : W4 m ρ c (Proc.devRef .tc main_arg17) = m ((c : Thread nD τ).loc main_arg17) :=
  ((W4_of_ne m ρ c main_arg17 (by decide)).trans ((show StableHlo.after hostOps1 (W2 m ρ c) (Proc.devRef .tc main_arg17) = W2 m ρ c (Proc.devRef .tc main_arg17) from by after_results).trans ((W2_of_ne m ρ c main_arg17 (by decide)).trans ((show StableHlo.after hostOps0 (W0 m ρ c) (Proc.devRef .tc main_arg17) = W0 m ρ c (Proc.devRef .tc main_arg17) from by after_results).trans rfl))))

theorem W4_arg5 : W4 m ρ c (Proc.devRef .tc main_arg5) = m ((c : Thread nD τ).loc main_arg5) :=
  ((W4_of_ne m ρ c main_arg5 (by decide)).trans ((show StableHlo.after hostOps1 (W2 m ρ c) (Proc.devRef .tc main_arg5) = W2 m ρ c (Proc.devRef .tc main_arg5) from by after_results).trans ((W2_of_ne m ρ c main_arg5 (by decide)).trans ((show StableHlo.after hostOps0 (W0 m ρ c) (Proc.devRef .tc main_arg5) = W0 m ρ c (Proc.devRef .tc main_arg5) from by after_results).trans rfl))))

theorem W4_arg6 : W4 m ρ c (Proc.devRef .tc main_arg6) = m ((c : Thread nD τ).loc main_arg6) :=
  ((W4_of_ne m ρ c main_arg6 (by decide)).trans ((show StableHlo.after hostOps1 (W2 m ρ c) (Proc.devRef .tc main_arg6) = W2 m ρ c (Proc.devRef .tc main_arg6) from by after_results).trans ((W2_of_ne m ρ c main_arg6 (by decide)).trans ((show StableHlo.after hostOps0 (W0 m ρ c) (Proc.devRef .tc main_arg6) = W0 m ρ c (Proc.devRef .tc main_arg6) from by after_results).trans rfl))))

theorem W4_arg7 : W4 m ρ c (Proc.devRef .tc main_arg7) = m ((c : Thread nD τ).loc main_arg7) :=
  ((W4_of_ne m ρ c main_arg7 (by decide)).trans ((show StableHlo.after hostOps1 (W2 m ρ c) (Proc.devRef .tc main_arg7) = W2 m ρ c (Proc.devRef .tc main_arg7) from by after_results).trans ((W2_of_ne m ρ c main_arg7 (by decide)).trans ((show StableHlo.after hostOps0 (W0 m ρ c) (Proc.devRef .tc main_arg7) = W0 m ρ c (Proc.devRef .tc main_arg7) from by after_results).trans rfl))))

theorem W4_arg8 : W4 m ρ c (Proc.devRef .tc main_arg8) = m ((c : Thread nD τ).loc main_arg8) :=
  ((W4_of_ne m ρ c main_arg8 (by decide)).trans ((show StableHlo.after hostOps1 (W2 m ρ c) (Proc.devRef .tc main_arg8) = W2 m ρ c (Proc.devRef .tc main_arg8) from by after_results).trans ((W2_of_ne m ρ c main_arg8 (by decide)).trans ((show StableHlo.after hostOps0 (W0 m ρ c) (Proc.devRef .tc main_arg8) = W0 m ρ c (Proc.devRef .tc main_arg8) from by after_results).trans rfl))))

theorem W4_arg9 : W4 m ρ c (Proc.devRef .tc main_arg9) = m ((c : Thread nD τ).loc main_arg9) :=
  ((W4_of_ne m ρ c main_arg9 (by decide)).trans ((show StableHlo.after hostOps1 (W2 m ρ c) (Proc.devRef .tc main_arg9) = W2 m ρ c (Proc.devRef .tc main_arg9) from by after_results).trans ((W2_of_ne m ρ c main_arg9 (by decide)).trans ((show StableHlo.after hostOps0 (W0 m ρ c) (Proc.devRef .tc main_arg9) = W0 m ρ c (Proc.devRef .tc main_arg9) from by after_results).trans rfl))))

theorem W4_arg10 : W4 m ρ c (Proc.devRef .tc main_arg10) = m ((c : Thread nD τ).loc main_arg10) :=
  ((W4_of_ne m ρ c main_arg10 (by decide)).trans ((show StableHlo.after hostOps1 (W2 m ρ c) (Proc.devRef .tc main_arg10) = W2 m ρ c (Proc.devRef .tc main_arg10) from by after_results).trans ((W2_of_ne m ρ c main_arg10 (by decide)).trans ((show StableHlo.after hostOps0 (W0 m ρ c) (Proc.devRef .tc main_arg10) = W0 m ρ c (Proc.devRef .tc main_arg10) from by after_results).trans rfl))))

theorem W4_arg11 : W4 m ρ c (Proc.devRef .tc main_arg11) = m ((c : Thread nD τ).loc main_arg11) :=
  ((W4_of_ne m ρ c main_arg11 (by decide)).trans ((show StableHlo.after hostOps1 (W2 m ρ c) (Proc.devRef .tc main_arg11) = W2 m ρ c (Proc.devRef .tc main_arg11) from by after_results).trans ((W2_of_ne m ρ c main_arg11 (by decide)).trans ((show StableHlo.after hostOps0 (W0 m ρ c) (Proc.devRef .tc main_arg11) = W0 m ρ c (Proc.devRef .tc main_arg11) from by after_results).trans rfl))))

theorem W4_arg12 : W4 m ρ c (Proc.devRef .tc main_arg12) = m ((c : Thread nD τ).loc main_arg12) :=
  ((W4_of_ne m ρ c main_arg12 (by decide)).trans ((show StableHlo.after hostOps1 (W2 m ρ c) (Proc.devRef .tc main_arg12) = W2 m ρ c (Proc.devRef .tc main_arg12) from by after_results).trans ((W2_of_ne m ρ c main_arg12 (by decide)).trans ((show StableHlo.after hostOps0 (W0 m ρ c) (Proc.devRef .tc main_arg12) = W0 m ρ c (Proc.devRef .tc main_arg12) from by after_results).trans rfl))))

theorem W6_arg13 : W6 m ρ c (Proc.devRef .tc main_arg13) = m ((c : Thread nD τ).loc main_arg13) :=
  ((W6_of_ne m ρ c main_arg13 (by decide)).trans ((show StableHlo.after hostOps2 (W4 m ρ c) (Proc.devRef .tc main_arg13) = W4 m ρ c (Proc.devRef .tc main_arg13) from by after_results).trans ((W4_of_ne m ρ c main_arg13 (by decide)).trans ((show StableHlo.after hostOps1 (W2 m ρ c) (Proc.devRef .tc main_arg13) = W2 m ρ c (Proc.devRef .tc main_arg13) from by after_results).trans ((W2_of_ne m ρ c main_arg13 (by decide)).trans ((show StableHlo.after hostOps0 (W0 m ρ c) (Proc.devRef .tc main_arg13) = W0 m ρ c (Proc.devRef .tc main_arg13) from by after_results).trans rfl))))))

theorem W6_arg14 : W6 m ρ c (Proc.devRef .tc main_arg14) = m ((c : Thread nD τ).loc main_arg14) :=
  ((W6_of_ne m ρ c main_arg14 (by decide)).trans ((show StableHlo.after hostOps2 (W4 m ρ c) (Proc.devRef .tc main_arg14) = W4 m ρ c (Proc.devRef .tc main_arg14) from by after_results).trans ((W4_of_ne m ρ c main_arg14 (by decide)).trans ((show StableHlo.after hostOps1 (W2 m ρ c) (Proc.devRef .tc main_arg14) = W2 m ρ c (Proc.devRef .tc main_arg14) from by after_results).trans ((W2_of_ne m ρ c main_arg14 (by decide)).trans ((show StableHlo.after hostOps0 (W0 m ρ c) (Proc.devRef .tc main_arg14) = W0 m ρ c (Proc.devRef .tc main_arg14) from by after_results).trans rfl))))))

theorem W8_arg15 : W8 m ρ c (Proc.devRef .tc main_arg15) = m ((c : Thread nD τ).loc main_arg15) :=
  ((W8_of_ne m ρ c main_arg15 (by decide)).trans ((show StableHlo.after hostOps3 (W6 m ρ c) (Proc.devRef .tc main_arg15) = W6 m ρ c (Proc.devRef .tc main_arg15) from by after_results).trans ((W6_of_ne m ρ c main_arg15 (by decide)).trans ((show StableHlo.after hostOps2 (W4 m ρ c) (Proc.devRef .tc main_arg15) = W4 m ρ c (Proc.devRef .tc main_arg15) from by after_results).trans ((W4_of_ne m ρ c main_arg15 (by decide)).trans ((show StableHlo.after hostOps1 (W2 m ρ c) (Proc.devRef .tc main_arg15) = W2 m ρ c (Proc.devRef .tc main_arg15) from by after_results).trans ((W2_of_ne m ρ c main_arg15 (by decide)).trans ((show StableHlo.after hostOps0 (W0 m ρ c) (Proc.devRef .tc main_arg15) = W0 m ρ c (Proc.devRef .tc main_arg15) from by after_results).trans rfl))))))))

theorem W8_arg16 : W8 m ρ c (Proc.devRef .tc main_arg16) = m ((c : Thread nD τ).loc main_arg16) :=
  ((W8_of_ne m ρ c main_arg16 (by decide)).trans ((show StableHlo.after hostOps3 (W6 m ρ c) (Proc.devRef .tc main_arg16) = W6 m ρ c (Proc.devRef .tc main_arg16) from by after_results).trans ((W6_of_ne m ρ c main_arg16 (by decide)).trans ((show StableHlo.after hostOps2 (W4 m ρ c) (Proc.devRef .tc main_arg16) = W4 m ρ c (Proc.devRef .tc main_arg16) from by after_results).trans ((W4_of_ne m ρ c main_arg16 (by decide)).trans ((show StableHlo.after hostOps1 (W2 m ρ c) (Proc.devRef .tc main_arg16) = W2 m ρ c (Proc.devRef .tc main_arg16) from by after_results).trans ((W2_of_ne m ρ c main_arg16 (by decide)).trans ((show StableHlo.after hostOps0 (W0 m ρ c) (Proc.devRef .tc main_arg16) = W0 m ρ c (Proc.devRef .tc main_arg16) from by after_results).trans rfl))))))))

/-! ## The activations, layer by layer -/

/-- After the first encoder layer. -/
def act1 : Mat 16384 2000 := relu (affine (m ((c : Thread nD τ).loc main_arg0)) (m ((c : Thread nD τ).loc main_arg1)) (m ((c : Thread nD τ).loc main_arg2)))
/-- After the second encoder layer. -/
def act2 : Mat 16384 2000 := relu (affine (act1 m c) (m ((c : Thread nD τ).loc main_arg3)) (m ((c : Thread nD τ).loc main_arg4)))
/-- The latent array. -/
def lat : Mat 16384 256 := affine (relu (affine (act2 m c) (m ((c : Thread nD τ).loc main_arg5)) (m ((c : Thread nD τ).loc main_arg6)))) (m ((c : Thread nD τ).loc main_arg7)) (m ((c : Thread nD τ).loc main_arg8))
/-- After the decoder's first two layers. -/
def dec2 : Mat 16384 2000 := relu (affine (relu (affine (lat m c) (m ((c : Thread nD τ).loc main_arg9)) (m ((c : Thread nD τ).loc main_arg10)))) (m ((c : Thread nD τ).loc main_arg11)) (m ((c : Thread nD τ).loc main_arg12)))
/-- After the decoder's third layer. -/
def dec1 : Mat 16384 2000 := relu (affine (dec2 m c) (m ((c : Thread nD τ).loc main_arg13)) (m ((c : Thread nD τ).loc main_arg14)))

/-! ## Region 0 -/

theorem e0_x : V1 m ρ c main_arg0 = (m ((c : Thread nD τ).loc main_arg0)) := by
  show StableHlo.after hostOps0 (W0 m ρ c) (Proc.devRef .tc main_arg0) = _
  after_results

theorem e0_w : V1 m ρ c main_v0 = (truncf .bf16 (m ((c : Thread nD τ).loc main_arg1)) bitsLt_bf16_f32 : FVec Ideal S784x2000 .bf16) := by
  show StableHlo.after hostOps0 (W0 m ρ c) (Proc.devRef .tc main_v0) = _
  after_results
  all_goals rfl

theorem e0_b : V1 m ρ c main_v1 = (shapeCast S1x2000 (m ((c : Thread nD τ).loc main_arg2)) shapeCasts_S2000_S1x2000 : FVec Ideal S1x2000 .f32) := by
  show StableHlo.after hostOps0 (W0 m ρ c) (Proc.devRef .tc main_v1) = _
  after_results
  all_goals rfl

theorem out0 : W2 m ρ c (Proc.devRef .tc main_v2) = act1 m c := by
  refine (W2_arr m ρ c 3).trans ((Layer0.final (V1 m ρ) c).trans ?_)
  rw [e0_x, e0_w, e0_b, truncf_id, affine2_shapeCast]
  rfl

/-! ## Region 1 -/

theorem e1_a : V3 m ρ c main_v2 = act1 m c := by
  show StableHlo.after hostOps1 (W2 m ρ c) (Proc.devRef .tc main_v2) = _
  after_results
  exact out0 m ρ c

theorem e1_w : V3 m ρ c main_v3 = (truncf .bf16 (m ((c : Thread nD τ).loc main_arg3)) bitsLt_bf16_f32 : FVec Ideal S2000x2000 .bf16) := by
  show StableHlo.after hostOps1 (W2 m ρ c) (Proc.devRef .tc main_v3) = _
  after_results
  rw [W2_arg3]
  all_goals rfl

theorem e1_b : V3 m ρ c main_v4 = (shapeCast S1x2000 (m ((c : Thread nD τ).loc main_arg4)) shapeCasts_S2000_S1x2000 : FVec Ideal S1x2000 .f32) := by
  show StableHlo.after hostOps1 (W2 m ρ c) (Proc.devRef .tc main_v4) = _
  after_results
  rw [W2_arg4]
  all_goals rfl

theorem out1 : W4 m ρ c (Proc.devRef .tc main_v5) = act2 m c := by
  refine (W4_arr m ρ c 3).trans ((Layer1.final (V3 m ρ) c).trans ?_)
  rw [e1_a, e1_w, e1_b, truncf_id, affine2_shapeCast]
  rfl

/-! ## The middle region -/

theorem e2_a : V5 m ρ c main_v5 = act2 m c := by
  show StableHlo.after hostOps2 (W4 m ρ c) (Proc.devRef .tc main_v5) = _
  after_results
  exact out1 m ρ c

theorem e2_w2 : V5 m ρ c main_v10 = (truncf .bf16 (m ((c : Thread nD τ).loc main_arg5)) bitsLt_bf16_f32 : FVec Ideal S2000x500 .bf16) := by
  show StableHlo.after hostOps2 (W4 m ρ c) (Proc.devRef .tc main_v10) = _
  after_results
  rw [W4_arg5]
  all_goals rfl

theorem e2_b2 : V5 m ρ c main_v11 = (shapeCast S1x500 (m ((c : Thread nD τ).loc main_arg6)) shapeCasts_S500_S1x500 : FVec Ideal S1x500 .f32) := by
  show StableHlo.after hostOps2 (W4 m ρ c) (Proc.devRef .tc main_v11) = _
  after_results
  rw [W4_arg6]
  all_goals rfl

theorem e2_w3 : V5 m ρ c main_v12 = (truncf .bf16 (m ((c : Thread nD τ).loc main_arg7)) bitsLt_bf16_f32 : FVec Ideal S500x256 .bf16) := by
  show StableHlo.after hostOps2 (W4 m ρ c) (Proc.devRef .tc main_v12) = _
  after_results
  rw [W4_arg7]
  all_goals rfl

theorem e2_b3 : V5 m ρ c main_v13 = (shapeCast S1x256 (m ((c : Thread nD τ).loc main_arg8)) shapeCasts_S256_S1x256 : FVec Ideal S1x256 .f32) := by
  show StableHlo.after hostOps2 (W4 m ρ c) (Proc.devRef .tc main_v13) = _
  after_results
  rw [W4_arg8]
  all_goals rfl

theorem e2_d3 : V5 m ρ c main_v14 = (truncf .bf16 (m ((c : Thread nD τ).loc main_arg9)) bitsLt_bf16_f32 : FVec Ideal S256x500 .bf16) := by
  show StableHlo.after hostOps2 (W4 m ρ c) (Proc.devRef .tc main_v14) = _
  after_results
  rw [W4_arg9]
  all_goals rfl

theorem e2_c3 : V5 m ρ c main_v15 = (shapeCast S1x500 (m ((c : Thread nD τ).loc main_arg10)) shapeCasts_S500_S1x500 : FVec Ideal S1x500 .f32) := by
  show StableHlo.after hostOps2 (W4 m ρ c) (Proc.devRef .tc main_v15) = _
  after_results
  rw [W4_arg10]
  all_goals rfl

theorem e2_d2 : V5 m ρ c main_v16 = (truncf .bf16 (m ((c : Thread nD τ).loc main_arg11)) bitsLt_bf16_f32 : FVec Ideal S500x2000 .bf16) := by
  show StableHlo.after hostOps2 (W4 m ρ c) (Proc.devRef .tc main_v16) = _
  after_results
  rw [W4_arg11]
  all_goals rfl

theorem e2_c2 : V5 m ρ c main_v17 = (shapeCast S1x2000 (m ((c : Thread nD τ).loc main_arg12)) shapeCasts_S2000_S1x2000 : FVec Ideal S1x2000 .f32) := by
  show StableHlo.after hostOps2 (W4 m ρ c) (Proc.devRef .tc main_v17) = _
  after_results
  rw [W4_arg12]
  all_goals rfl

/-- The transposed prototypes. -/
def protoT : Mat 256 1024 := transpose S256x1024 [1, 0] (m ((c : Thread nD τ).loc main_arg17)) transposes_S1024x256_S256x1024_1_0
/-- The prototypes' squared lengths. -/
def proto2 : Row 1024 :=
  Host.reduceAdd (mulf (m ((c : Thread nD τ).loc main_arg17)) (m ((c : Thread nD τ).loc main_arg17))) (constant (F := Ideal) S_ .f32 0x00000000#32) reducesTo_S1024x256_S1024_d1 h_S_

theorem e2_pt : V5 m ρ c main_v6 = (protoT m c : FVec Ideal S256x1024 .f32) := by
  show StableHlo.after hostOps2 (W4 m ρ c) (Proc.devRef .tc main_v6) = _
  after_results
  rw [W4_arg17]
  all_goals rfl
theorem e2_p2 : V5 m ρ c main_v9 = (shapeCast S1x1024 (proto2 m c) shapeCasts_S1024_S1x1024 : FVec Ideal S1x1024 .f32) := by
  show StableHlo.after hostOps2 (W4 m ρ c) (Proc.devRef .tc main_v9) = _
  after_results
  rw [W4_arg17]
  all_goals rfl

theorem z_eq : Mid.Z (V5 m ρ) c = lat m c := by
  unfold Mid.Z latent lat
  rw [e2_a, e2_w2, e2_b2, e2_w3, e2_b3]
  simp only [truncf_id, affine2_shapeCast]

theorem out2a : W6 m ρ c (Proc.devRef .tc main_v18_0) = dec2 m c := by
  refine (W6_arr m ρ c 11).trans ((Mid.final11 (V5 m ρ) c).trans ?_)
  rw [z_eq, e2_d3, e2_c3, e2_d2, e2_c2]
  unfold dechead dec2
  simp only [truncf_id, affine2_shapeCast]

theorem out2b : W6 m ρ c (Proc.devRef .tc main_v18_1) = som Mid.two (lat m c) (protoT m c) (proto2 m c) := by
  refine (W6_arr m ρ c 12).trans ((Mid.final12 (V5 m ρ) c).trans ?_)
  rw [z_eq, e2_pt, e2_p2, som2_shapeCast]

/-! ## Region 3 -/

theorem e3_a : V7 m ρ c main_v18_0 = dec2 m c := by
  show StableHlo.after hostOps3 (W6 m ρ c) (Proc.devRef .tc main_v18_0) = _
  after_results
  exact out2a m ρ c

theorem e3_w : V7 m ρ c main_v19 = (truncf .bf16 (m ((c : Thread nD τ).loc main_arg13)) bitsLt_bf16_f32 : FVec Ideal S2000x2000 .bf16) := by
  show StableHlo.after hostOps3 (W6 m ρ c) (Proc.devRef .tc main_v19) = _
  after_results
  rw [W6_arg13]
  all_goals rfl

theorem e3_b : V7 m ρ c main_v20 = (shapeCast S1x2000 (m ((c : Thread nD τ).loc main_arg14)) shapeCasts_S2000_S1x2000 : FVec Ideal S1x2000 .f32) := by
  show StableHlo.after hostOps3 (W6 m ρ c) (Proc.devRef .tc main_v20) = _
  after_results
  rw [W6_arg14]
  all_goals rfl

theorem out3 : W8 m ρ c (Proc.devRef .tc main_v21) = dec1 m c := by
  refine (W8_arr m ρ c 3).trans ((Layer3.final (V7 m ρ) c).trans ?_)
  rw [e3_a, e3_w, e3_b, truncf_id, affine2_shapeCast]
  rfl

/-! ## Region 4 -/

theorem e4_a : V9 m ρ c main_v21 = dec1 m c := by
  show StableHlo.after hostOps4 (W8 m ρ c) (Proc.devRef .tc main_v21) = _
  after_results
  exact out3 m ρ c

theorem e4_w : V9 m ρ c main_v22 = (truncf .bf16 (m ((c : Thread nD τ).loc main_arg15)) bitsLt_bf16_f32 : FVec Ideal S2000x784 .bf16) := by
  show StableHlo.after hostOps4 (W8 m ρ c) (Proc.devRef .tc main_v22) = _
  after_results
  rw [W8_arg15]
  all_goals rfl

theorem e4_b : V9 m ρ c main_v23 = (shapeCast S1x784 (m ((c : Thread nD τ).loc main_arg16)) shapeCasts_S784_S1x784 : FVec Ideal S1x784 .f32) := by
  show StableHlo.after hostOps4 (W8 m ρ c) (Proc.devRef .tc main_v23) = _
  after_results
  rw [W8_arg16]
  all_goals rfl

/-- The decoded array at the end of the run. -/
theorem decoded : W10 m ρ c (Proc.devRef .tc main_v24)
    = decodedOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W10_arr m ρ c 3).trans ((Layer4.final (V9 m ρ) c).trans ?_)
  rw [e4_a, e4_w, e4_b, truncf_id, affine2_shapeCast]
  rfl

/-- The distance array at the end of the run: the middle region wrote it, and nothing after that region touches it. -/
theorem distances : W10 m ρ c (Proc.devRef .tc main_v18_1)
    = distancesOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg17)) :=
  (W10_of_ne m ρ c main_v18_1 (by decide)).trans
    ((show StableHlo.after hostOps4 (W8 m ρ c) (Proc.devRef .tc main_v18_1) = W8 m ρ c (Proc.devRef .tc main_v18_1) from by after_results).trans
      ((W8_of_ne m ρ c main_v18_1 (by decide)).trans
        ((show StableHlo.after hostOps3 (W6 m ρ c) (Proc.devRef .tc main_v18_1) = W6 m ρ c (Proc.devRef .tc main_v18_1) from by after_results).trans
          ((out2b m ρ c).trans rfl))))

end Cert.KernelIdeal.Whole

end
-- ==== Proof.RefSide.lean ====
/-
  The reference program's two results as the network's functions of its arguments.

  Its operations, read one layer at a time: each dense layer is a general dot product with one contracted axis, the
  bias broadcast first to one row and then over all rows, and for the rectified layers the maximum with a zero
  broadcast from a scalar; the distance array is the row sums of squares of the latent array kept as a column, the
  prototypes' sums of squares kept as a row, both broadcast and added, minus twice the general dot product with the
  transposed prototypes, cut at zero.
-/
import proofs.«125961_j2808908612213_2_alg».proof.Proof.Gen.ReferenceIdeal.Read
import proofs.«125961_j2808908612213_2_alg».proof.Proof.Spec

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.Dense

variable (x0 : (⟨S16384x784, .f32⟩ : BufTy).Contents (Elt Ideal))
  (x1 : (⟨S784x2000, .f32⟩ : BufTy).Contents (Elt Ideal))
  (x2 : (⟨S2000, .f32⟩ : BufTy).Contents (Elt Ideal))
  (x3 : (⟨S2000x2000, .f32⟩ : BufTy).Contents (Elt Ideal))
  (x4 : (⟨S2000, .f32⟩ : BufTy).Contents (Elt Ideal))
  (x5 : (⟨S2000x500, .f32⟩ : BufTy).Contents (Elt Ideal))
  (x6 : (⟨S500, .f32⟩ : BufTy).Contents (Elt Ideal))
  (x7 : (⟨S500x256, .f32⟩ : BufTy).Contents (Elt Ideal))
  (x8 : (⟨S256, .f32⟩ : BufTy).Contents (Elt Ideal))
  (x9 : (⟨S256x500, .f32⟩ : BufTy).Contents (Elt Ideal))
  (x10 : (⟨S500, .f32⟩ : BufTy).Contents (Elt Ideal))
  (x11 : (⟨S500x2000, .f32⟩ : BufTy).Contents (Elt Ideal))
  (x12 : (⟨S2000, .f32⟩ : BufTy).Contents (Elt Ideal))
  (x13 : (⟨S2000x2000, .f32⟩ : BufTy).Contents (Elt Ideal))
  (x14 : (⟨S2000, .f32⟩ : BufTy).Contents (Elt Ideal))
  (x15 : (⟨S2000x784, .f32⟩ : BufTy).Contents (Elt Ideal))
  (x16 : (⟨S784, .f32⟩ : BufTy).Contents (Elt Ideal))
  (x17 : (⟨S1024x256, .f32⟩ : BufTy).Contents (Elt Ideal))

/-- The reference's rectified affine layer 0: a general dot product, the bias broadcast over the rows, the maximum with zero. -/
theorem layer0 : val_main_v4 (F := Ideal) x0 x1 x2 = relu (affine x0 x1 x2) := by
  unfold val_main_v4 val_main_v3 val_main_v2 val_main_v1 val_main_v0 val_main_call0_v0 val_main_call0_cst
  rw [show dot_S16384x784_S784x2000_S16384x2000_1_0_0_1_n_n = DotDims.plain 16384 784 2000 from rfl]
  exact (maximumf_broadcastInDim_zero _ _).trans (congrArg relu (addf_dotGeneral_broadcastInDim x0 x1 x2 _ _))

/-- The reference's rectified affine layer 1: a general dot product, the bias broadcast over the rows, the maximum with zero. -/
theorem layer1 : val_main_v9 (F := Ideal) x0 x1 x2 x3 x4 = relu (affine (val_main_v4 (F := Ideal) x0 x1 x2) x3 x4) := by
  unfold val_main_v9 val_main_v8 val_main_v7 val_main_v6 val_main_v5 val_main_call1_v0 val_main_call1_cst
  rw [show dot_S16384x2000_S2000x2000_S16384x2000_1_0_0_1_n_n = DotDims.plain 16384 2000 2000 from rfl]
  exact (maximumf_broadcastInDim_zero _ _).trans (congrArg relu (addf_dotGeneral_broadcastInDim (val_main_v4 (F := Ideal) x0 x1 x2) x3 x4 _ _))

/-- The reference's rectified affine layer 2: a general dot product, the bias broadcast over the rows, the maximum with zero. -/
theorem layer2 : val_main_v14 (F := Ideal) x0 x1 x2 x3 x4 x5 x6 = relu (affine (val_main_v9 (F := Ideal) x0 x1 x2 x3 x4) x5 x6) := by
  unfold val_main_v14 val_main_v13 val_main_v12 val_main_v11 val_main_v10 val_main_call2_v0 val_main_call2_cst
  rw [show dot_S16384x2000_S2000x500_S16384x500_1_0_0_1_n_n = DotDims.plain 16384 2000 500 from rfl]
  exact (maximumf_broadcastInDim_zero _ _).trans (congrArg relu (addf_dotGeneral_broadcastInDim (val_main_v9 (F := Ideal) x0 x1 x2 x3 x4) x5 x6 _ _))

/-- The reference's affine layer 3: a general dot product, the bias broadcast over the rows. -/
theorem layer3 : val_main_v18 (F := Ideal) x0 x1 x2 x3 x4 x5 x6 x7 x8 = affine (val_main_v14 (F := Ideal) x0 x1 x2 x3 x4 x5 x6) x7 x8 := by
  unfold val_main_v18 val_main_v17 val_main_v16 val_main_v15
  rw [show dot_S16384x500_S500x256_S16384x256_1_0_0_1_n_n = DotDims.plain 16384 500 256 from rfl]
  exact addf_dotGeneral_broadcastInDim (val_main_v14 (F := Ideal) x0 x1 x2 x3 x4 x5 x6) x7 x8 _ _

/-- The reference's rectified affine layer 4: a general dot product, the bias broadcast over the rows, the maximum with zero. -/
theorem layer4 : val_main_v23 (F := Ideal) x0 x1 x2 x3 x4 x5 x6 x7 x8 x9 x10 = relu (affine (val_main_v18 (F := Ideal) x0 x1 x2 x3 x4 x5 x6 x7 x8) x9 x10) := by
  unfold val_main_v23 val_main_v22 val_main_v21 val_main_v20 val_main_v19 val_main_call3_v0 val_main_call3_cst
  rw [show dot_S16384x256_S256x500_S16384x500_1_0_0_1_n_n = DotDims.plain 16384 256 500 from rfl]
  exact (maximumf_broadcastInDim_zero _ _).trans (congrArg relu (addf_dotGeneral_broadcastInDim (val_main_v18 (F := Ideal) x0 x1 x2 x3 x4 x5 x6 x7 x8) x9 x10 _ _))

/-- The reference's rectified affine layer 5: a general dot product, the bias broadcast over the rows, the maximum with zero. -/
theorem layer5 : val_main_v28 (F := Ideal) x0 x1 x2 x3 x4 x5 x6 x7 x8 x9 x10 x11 x12 = relu (affine (val_main_v23 (F := Ideal) x0 x1 x2 x3 x4 x5 x6 x7 x8 x9 x10) x11 x12) := by
  unfold val_main_v28 val_main_v27 val_main_v26 val_main_v25 val_main_v24 val_main_call4_v0 val_main_call4_cst
  rw [show dot_S16384x500_S500x2000_S16384x2000_1_0_0_1_n_n = DotDims.plain 16384 500 2000 from rfl]
  exact (maximumf_broadcastInDim_zero _ _).trans (congrArg relu (addf_dotGeneral_broadcastInDim (val_main_v23 (F := Ideal) x0 x1 x2 x3 x4 x5 x6 x7 x8 x9 x10) x11 x12 _ _))

/-- The reference's rectified affine layer 6: a general dot product, the bias broadcast over the rows, the maximum with zero. -/
theorem layer6 : val_main_v33 (F := Ideal) x0 x1 x2 x3 x4 x5 x6 x7 x8 x9 x10 x11 x12 x13 x14 = relu (affine (val_main_v28 (F := Ideal) x0 x1 x2 x3 x4 x5 x6 x7 x8 x9 x10 x11 x12) x13 x14) := by
  unfold val_main_v33 val_main_v32 val_main_v31 val_main_v30 val_main_v29 val_main_call5_v0 val_main_call5_cst
  rw [show dot_S16384x2000_S2000x2000_S16384x2000_1_0_0_1_n_n = DotDims.plain 16384 2000 2000 from rfl]
  exact (maximumf_broadcastInDim_zero _ _).trans (congrArg relu (addf_dotGeneral_broadcastInDim (val_main_v28 (F := Ideal) x0 x1 x2 x3 x4 x5 x6 x7 x8 x9 x10 x11 x12) x13 x14 _ _))

/-- The reference's affine layer 7: a general dot product, the bias broadcast over the rows. -/
theorem layer7 : val_main_v37 (F := Ideal) x0 x1 x2 x3 x4 x5 x6 x7 x8 x9 x10 x11 x12 x13 x14 x15 x16 = affine (val_main_v33 (F := Ideal) x0 x1 x2 x3 x4 x5 x6 x7 x8 x9 x10 x11 x12 x13 x14) x15 x16 := by
  unfold val_main_v37 val_main_v36 val_main_v35 val_main_v34
  rw [show dot_S16384x2000_S2000x784_S16384x784_1_0_0_1_n_n = DotDims.plain 16384 2000 784 from rfl]
  exact addf_dotGeneral_broadcastInDim (val_main_v33 (F := Ideal) x0 x1 x2 x3 x4 x5 x6 x7 x8 x9 x10 x11 x12 x13 x14) x15 x16 _ _

/-- The latent array. -/
theorem latent_eq : val_main_v18 (F := Ideal) x0 x1 x2 x3 x4 x5 x6 x7 x8 = encode x0 x1 x2 x3 x4 x5 x6 x7 x8 := by
  rw [layer3, layer2, layer1, layer0]
  rfl

/-- The decoded array. -/
theorem decoded_eq : val_main_v37 (F := Ideal) x0 x1 x2 x3 x4 x5 x6 x7 x8 x9 x10 x11 x12 x13 x14 x15 x16
    = decode (encode x0 x1 x2 x3 x4 x5 x6 x7 x8) x9 x10 x11 x12 x13 x14 x15 x16 := by
  rw [layer7, layer6, layer5, layer4, latent_eq]
  rfl

/-- The distance array. -/
theorem dist_eq : val_main_v53 (F := Ideal) x0 x1 x2 x3 x4 x5 x6 x7 x8 x17
    = som (Ideal.ofBits .f32 0x40000000#32) (encode x0 x1 x2 x3 x4 x5 x6 x7 x8) (val_main_v47 (F := Ideal) x17) (val_main_v42 (F := Ideal) x17) := by
  unfold val_main_v53 val_main_v52 val_main_cst_2 val_main_v51 val_main_v50 val_main_v49 val_main_cst_1 val_main_v48 val_main_v46
    val_main_v45 val_main_v44 val_main_v43 val_main_v40 val_main_v39 val_main_cst val_main_v38
  rw [show dot_S16384x256_S256x1024_S16384x1024_1_0_0_1_n_n = DotDims.plain 16384 256 1024 from rfl, latent_eq]
  exact host_som (encode x0 x1 x2 x3 x4 x5 x6 x7 x8) (val_main_v47 (F := Ideal) x17) (val_main_v42 (F := Ideal) x17)
    reducesTo_S16384x256_S16384_d1 h_S_ (by decide)
    (fun p k => funext fun a => Fin.ext (by match a with | ⟨0, _⟩ => rfl | ⟨1, _⟩ => rfl))
    bcast_S16384_S16384x1_0 bcast_S16384x1_S16384x1024_0_1 bcast_S1024_S1x1024_1 bcast_S1x1024_S16384x1024_0_1
    bcast_S_S16384x1024 bcast_S_S16384x1024

/-! ## The run, with both results at the network's functions -/

/-- The reference's transposed prototypes and their squared lengths are the network's. -/
theorem protoT_eq : val_main_v47 (F := Ideal) x17 = protoTOf x17 := by
  unfold val_main_v47 protoTOf
  rfl
theorem proto2_eq : val_main_v42 (F := Ideal) x17 = proto2Of x17 := by
  unfold val_main_v42 val_main_v41 val_main_cst_0 proto2Of
  rfl

section Run

variable (m : (ℓ : Loc nD τ sig) → Buf (Elt Ideal) ℓ) (ρ : Dev nD → PrngReg)

/-- The distance result's term is the distances of the latent array to the prototypes. -/
theorem dist_run (c : Dev nD) :
    Cert.ReferenceIdeal.Value.res_main_v53 m c = distancesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg17)) := by
  refine (val_main_v53_eq m c).trans ((dist_eq _ _ _ _ _ _ _ _ _ _).trans ?_)
  rw [protoT_eq, proto2_eq]
  rfl

/-- Every weakly fair execution of the reference terminates with the decoded array and the distance array at the
    network's functions of the arguments, and the arguments unchanged. -/
theorem run_ref : θ_run defs (onTc (τ := τ) (main (F := Ideal))) ⟨m, fun _ => 0, ρ⟩ fun r => ∀ c : Dev nD,
      r.2.mem ((c.tc : Thread nD τ).loc main_v37) = decodedOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v53) = distancesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c =>
      ⟨(h c).1.trans ((val_main_v37_eq _ _ _ _ _ _ _ _ _ _ _ _ _ _ _ _ _).trans (decoded_eq _ _ _ _ _ _ _ _ _ _ _ _ _ _ _ _ _)),
       (h c).2.1.trans (dist_run m c), (h c).2.2⟩)
    (Cert.ReferenceIdeal.Value.run (F := Ideal) m ρ)

end Run

end Cert.ReferenceIdeal.RefValue

end
-- ==== Proof.lean ====
/-
  The certificate: a dense autoencoder with a prototype-distance head, computed as five pipelined regions with
  reduced-precision matrix products, against its plain reference.

  On the extended reals a change of float format is the identity and every matrix product is the exact sum of
  products, so the kernel program's blockwise layers and the reference's whole-array layers are the same functions:
  the decoded array is four affine layers (three rectified) of the latent array, which is four affine layers (three
  rectified) of the input; the distance array is, for every latent row z and prototype w, |z|² + |w|² − 2 z·w cut at
  zero, the three terms added and subtracted in the same order in both programs. No algebraic law beyond reading the
  two programs entry by entry is needed, and the finiteness precondition is not used.

  The three frame claims are the generated frame certificates (the reference's is its generated run with the results
  dropped); no operation was rewritten by the idealization, so that claim is trivial; the equivalence claim puts the
  kernel program's run, its two results read through the regions' write-backs, beside the reference's run, both
  results stated as the same functions of the arguments.
-/
import proofs.«125961_j2808908612213_2_alg».proof.Defs
import proofs.«125961_j2808908612213_2_alg».proof.Proof.Gen.Kernel
import proofs.«125961_j2808908612213_2_alg».proof.Proof.Gen.Kernel.Skeleton
import proofs.«125961_j2808908612213_2_alg».proof.Proof.Gen.Kernel.Launch
import proofs.«125961_j2808908612213_2_alg».proof.Proof.Gen.Kernel.Points
import proofs.«125961_j2808908612213_2_alg».proof.Proof.Gen.Kernel.Frame
import proofs.«125961_j2808908612213_2_alg».proof.Proof.Gen.KernelIdeal
import proofs.«125961_j2808908612213_2_alg».proof.Proof.Gen.KernelIdeal.Skeleton
import proofs.«125961_j2808908612213_2_alg».proof.Proof.Gen.KernelIdeal.Launch
import proofs.«125961_j2808908612213_2_alg».proof.Proof.Gen.KernelIdeal.Points
import proofs.«125961_j2808908612213_2_alg».proof.Proof.Gen.KernelIdeal.Frame
import proofs.«125961_j2808908612213_2_alg».proof.Proof.Gen.ReferenceIdeal
import proofs.«125961_j2808908612213_2_alg».proof.Proof.Gen.Pre_finite_inputs
import proofs.«125961_j2808908612213_2_alg».proof.Proof.Gen.ReferenceIdeal.Run
import proofs.«125961_j2808908612213_2_alg».proof.Proof.Gen.ReferenceIdeal.Read
import proofs.«125961_j2808908612213_2_alg».proof.Proof.KernelRun
import proofs.«125961_j2808908612213_2_alg».proof.Proof.Glue
import proofs.«125961_j2808908612213_2_alg».proof.Proof.RefSide
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both programs end with the decoded array and the distance array at the network's functions of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Dense.decodedOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.Dense.distancesOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg17)), ?_, ?_⟩
  · refine (θ_run Cert.KernelIdeal.defs _ _).mono (fun r h c => ?_) (Cert.KernelIdeal.Whole.run_all (F := Ideal) m ρ)
    obtain ⟨h0, h1, hargs⟩ := h c
    exact ⟨h0.trans (Cert.KernelIdeal.Whole.decoded m ρ c), h1.trans (Cert.KernelIdeal.Whole.distances m ρ c), hargs⟩
  · refine (θ_run Cert.ReferenceIdeal.defs _ _).mono (fun r h c => ?_) (Cert.ReferenceIdeal.RefValue.run_ref m' ρ')
    obtain ⟨h0, h1, hargs⟩ := h c
    obtain ⟨a0, a1, a2, a3, a4, a5, a6, a7, a8, a9, a10, a11, a12, a13, a14, a15, a16, a17⟩ := hagree c
    exact ⟨h0.trans (Cert.Dense.decodedOf_congr a0 a1 a2 a3 a4 a5 a6 a7 a8 a9 a10 a11 a12 a13 a14 a15 a16),
      h1.trans (Cert.Dense.distancesOf_congr a0 a1 a2 a3 a4 a5 a6 a7 a8 a17), hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
